-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128 .f32) (main_arg5 : FVec F S128 .f32) (main_arg6 : FVec F S128x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 124
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x64, .f32⟩
  | .hbm, ⟨112, _⟩ => ⟨S_, .i32⟩
  | .hbm, ⟨113, _⟩ => ⟨S1600000, .i32⟩
  | .hbm, ⟨114, _⟩ => ⟨S1600000, .i1⟩
  | .hbm, ⟨115, _⟩ => ⟨S_, .i32⟩
  | .hbm, ⟨116, _⟩ => ⟨S1600000, .i32⟩
  | .hbm, ⟨117, _⟩ => ⟨S1600000, .i32⟩
  | .hbm, ⟨118, _⟩ => ⟨S1600000, .i32⟩
  | .hbm, ⟨119, _⟩ => ⟨S1600000x1, .i32⟩
  | .hbm, ⟨120, _⟩ => ⟨S1600000x64, .f32⟩
  | .hbm, ⟨121, _⟩ => ⟨S1600000x64, .f32⟩
  | .hbm, ⟨122, _⟩ => ⟨S_, .f32⟩
  | .hbm, ⟨123, _⟩ => ⟨S1600000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_13 : Ref sig .tc := ⟨.hbm, 103, rfl⟩
abbrev main_v80 : Ref sig .tc := ⟨.hbm, 104, rfl⟩
abbrev main_v81 : Ref sig .tc := ⟨.hbm, 105, rfl⟩
abbrev main_c_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_15 : Ref sig .tc := ⟨.hbm, 112, rfl⟩
abbrev main_v87 : Ref sig .tc := ⟨.hbm, 113, rfl⟩
abbrev main_v88 : Ref sig .tc := ⟨.hbm, 114, rfl⟩
abbrev main_c_16 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩

abbrev nBuf : Space → Nat
  | .hbm => 170
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x64, .f32⟩
  | 98 => ⟨S100000, .i32⟩
  | 99 => ⟨S1700000, .i32⟩
  | 100 => ⟨S1700000, .i32⟩
  | 101 => ⟨S_, .f32⟩
  | 102 => ⟨S1700000, .f32⟩
  | 103 => ⟨S_, .f32⟩
  | 104 => ⟨S100000, .f32⟩
  | 105 => ⟨S1700000x1, .i32⟩
  | 106 => ⟨S100000, .f32⟩
  | 107 => ⟨S_, .f32⟩
  | 108 => ⟨S100000, .f32⟩
  | 109 => ⟨S100000, .f32⟩
  | 110 => ⟨S100000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x256, .f32⟩

abbrev hbmTy0_1 (i : Nat) : BufTy := match i % 128 with
  | 0 => ⟨S1700000, .f32⟩
  | 1 => ⟨S1700000, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x64, .f32⟩
  | 11 => ⟨S1700000x1, .f32⟩
  | 12 => ⟨S1700000x64, .f32⟩
  | 13 => ⟨S1700000x64, .f32⟩
  | 14 => ⟨S_, .f32⟩
  | 15 => ⟨S100000x64, .f32⟩
  | 16 => ⟨S1700000x1, .i32⟩
  | 17 => ⟨S100000x64, .f32⟩
  | 18 => ⟨S1x64, .f32⟩
  | 19 => ⟨S100000x64, .f32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S1600000x64, .f32⟩
  | 40 => ⟨S_, .f32⟩
  | 41 => ⟨S1600000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call0_cst : Ref sig .tc := ⟨.hbm, 94, rfl⟩
abbrev main_call0_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_c_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_18 : Ref sig .tc := ⟨.hbm, 120, rfl⟩
abbrev main_v90 : Ref sig .tc := ⟨.hbm, 121, rfl⟩
abbrev main_v91 : Ref sig .tc := ⟨.hbm, 122, rfl⟩
abbrev main_c_19 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_20 : Ref sig .tc := ⟨.hbm, 130, rfl⟩
abbrev main_v98 : Ref sig .tc := ⟨.hbm, 131, rfl⟩
abbrev main_v99 : Ref sig .tc := ⟨.hbm, 132, rfl⟩
abbrev main_c_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_22 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_23 : Ref sig .tc := ⟨.hbm, 149, rfl⟩
abbrev main_v114 : Ref sig .tc := ⟨.hbm, 150, rfl⟩
abbrev main_v115 : Ref sig .tc := ⟨.hbm, 151, rfl⟩
abbrev main_c_24 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_25 : Ref sig .tc := ⟨.hbm, 158, rfl⟩
abbrev main_v121 : Ref sig .tc := ⟨.hbm, 159, rfl⟩
abbrev main_v122 : Ref sig .tc := ⟨.hbm, 160, rfl⟩
abbrev main_c_26 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_27 : Ref sig .tc := ⟨.hbm, 168, rfl⟩
abbrev main_v129 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.KernelRun.lean ====
/-
  The idealized kernel program's run with its result named.

  @main is five stretches: host operations, the first launched region, host operations, the second launched region,
  host operations.  Every weakly fair execution terminates without a fault; at the end the arguments are as launched and
  the result array holds what the last stretch of host operations leaves in it, computed from the buffer contents at the
  second region's exit (`Gen.W5`): the same launch of the five segments that gives the frame, with the result's buffer
  read off the final thread state beside the arguments'.
-/
import proofs.«115060_j18459769439026_2_alg».proof.Proof.Gen.KernelIdeal.Frame

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result array ends at the last host
    stretch's value of it and every argument array as launched. -/
theorem run : θ_run defs (onTc (τ := τ) (main (F := F))) ⟨m, fun _ => 0, ρ⟩ (fun r => ∀ c : Dev nD,
      r.2.mem ((c.tc : Thread nD τ).loc main_v95) = W5 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v95 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.KernelValue

end
-- ==== Proof.KernelStages.lean ====
/-
  The host-side stages of the kernel program, each as a function of whole arrays.

  From the edge list `ei : [2, E]` (row 0 the sources, row 1 the targets): `src`, `dst`; the symmetric
  normalisation `dis i = rsqrt (max (deg i) 1)` with `deg i = (number of edges whose target is i) + 1`; the index
  `norm s` a source or target is looked up by (a negative word is shifted up by the number of nodes);
  `aggregate… h0 b`: row `i` of the result is `dis i · Σ_{e : dst e = i} (h0 · dis) (src e) + dis i² · h0 i + b`;
  the batch statistics of an array's columns; and the edge scores `Σ_k z (src e, k) · z (dst e, k)`.
  These are exactly the operations the program's host stretches apply, in the program's own spelling.
-/
import proofs.«115060_j18459769439026_2_alg».proof.Proof.Gen.KernelIdeal
import Idealize.ShloMosaic.PureOps.Ideal

noncomputable section

namespace Cert.KernelIdeal.Stages

open Cert.KernelIdeal Cert.KernelIdeal.Facts₀ Idealize.ShloMosaic

/-- The sources of the edges: row 0 of the edge list. -/
def src (ei : IVec S2x1600000 32) : IVec S1600000 32 :=
  shapeCast _ (extractStridedSlice S1x1600000 ![0, 0] ei slices_S2x1600000_S1x1600000_0_0) shapeCasts_S1x1600000_S1600000

/-- The targets of the edges: row 1 of the edge list. -/
def dst (ei : IVec S2x1600000 32) : IVec S1600000 32 :=
  shapeCast _ (extractStridedSlice S1x1600000 ![1, 0] ei slices_S2x1600000_S1x1600000_1_0) shapeCasts_S1x1600000_S1600000

/-- `deg i`: one for every edge whose target is `i`, added onto zero, plus one for the node's own loop. -/
def deg (ei : IVec S2x1600000 32) : FVec Ideal S100000 .f32 :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dst ei))
      (broadcastInDim S1600000 ![] bcast_S_S1600000 (constant (F := Ideal) S_ .f32 0x3F800000#32)))
    (broadcastInDim S100000 ![] bcast_S_S100000 (constant (F := Ideal) S_ .f32 0x3F800000#32))

/-- `dis i = rsqrt (max (deg i) 1)`. -/
def dis (ei : IVec S2x1600000 32) : FVec Ideal S100000 .f32 :=
  Host.rsqrt (maximumf (deg ei) (broadcastInDim S100000 ![] bcast_S_S100000 (constant (F := Ideal) S_ .f32 0x3F800000#32)))

/-- The word a row is looked up by: a negative word is shifted up by the number of nodes. -/
def norm (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- A vector over the nodes repeated along the 128 columns. -/
def cols128 (v : FVec Ideal S100000 .f32) : FVec Ideal S100000x128 .f32 :=
  broadcastInDim S100000x128 ![0, 1] bcast_S100000x1_S100000x128_0_1 (broadcastInDim S100000x1 ![0] bcast_S100000_S100000x1_0 v)

/-- A vector over the nodes repeated along the 64 columns. -/
def cols64 (v : FVec Ideal S100000 .f32) : FVec Ideal S100000x64 .f32 :=
  broadcastInDim S100000x64 ![0, 1] bcast_S100000x1_S100000x64_0_1 (broadcastInDim S100000x1 ![0] bcast_S100000_S100000x1_0 v)

/-- A vector of 128 entries repeated down the rows. -/
def rows128 (v : FVec Ideal S128 .f32) : FVec Ideal S100000x128 .f32 :=
  broadcastInDim S100000x128 ![0, 1] bcast_S1x128_S100000x128_0_1 (broadcastInDim S1x128 ![1] bcast_S128_S1x128_1 v)

/-- A vector of 64 entries repeated down the rows. -/
def rows64 (v : FVec Ideal S64 .f32) : FVec Ideal S100000x64 .f32 :=
  broadcastInDim S100000x64 ![0, 1] bcast_S1x64_S100000x64_0_1 (broadcastInDim S1x64 ![1] bcast_S64_S1x64_1 v)

/-- The normalised aggregation of a 128-column array over the edges, with the loop term and the bias:
    `dis i · Σ_{e : dst e = i} (h0 · dis) (src e) + dis i² · h0 i + b`. -/
def aggregate128 (h0 : FVec Ideal S100000x128 .f32) (b : FVec Ideal S128 .f32) (d : FVec Ideal S100000 .f32)
    (s t : IVec S1600000 32) : FVec Ideal S100000x128 .f32 :=
  addf (addf
      (mulf (cols128 d)
        (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 t)
          (Host.gather gather_S100000x128_S1600000x1_S1600000x128_1_0_n_n_0_1_1128 (mulf h0 (cols128 d))
            (broadcastInDim S1600000x1 ![0] bcast_S1600000_S1600000x1_0 (norm s)))))
      (mulf (cols128 (mulf d d)) h0))
    (rows128 b)

/-- The same aggregation of a 64-column array. -/
def aggregate64 (z0 : FVec Ideal S100000x64 .f32) (b : FVec Ideal S64 .f32) (d : FVec Ideal S100000 .f32)
    (s t : IVec S1600000 32) : FVec Ideal S100000x64 .f32 :=
  addf (addf
      (mulf (cols64 d)
        (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 t)
          (Host.gather gather_S100000x64_S1600000x1_S1600000x64_1_0_n_n_0_1_164 (mulf z0 (cols64 d))
            (broadcastInDim S1600000x1 ![0] bcast_S1600000_S1600000x1_0 (norm s)))))
      (mulf (cols64 (mulf d d)) z0))
    (rows64 b)

/-- The column means of a 128-column array: the column sums from zero, divided by the number of rows. -/
def mean (h : FVec Ideal S100000x128 .f32) : FVec Ideal S128 .f32 :=
  Host.divf (Host.reduceAdd h (constant (F := Ideal) S_ .f32 0x00000000#32) reducesTo_S100000x128_S128_d0 h_S_)
    (broadcastInDim S128 ![] bcast_S_S128 (constant (F := Ideal) S_ .f32 0x47C35000#32))

/-- The reciprocal standard deviations of the columns: `rsqrt (mean of (h − mean)² + ε)`. -/
def invstd (h : FVec Ideal S100000x128 .f32) : FVec Ideal S128 .f32 :=
  Host.rsqrt (addf
    (Host.divf
      (Host.reduceAdd
        (mulf (subf h (rows128 (mean h))) (subf h (rows128 (mean h))))
        (constant (F := Ideal) S_ .f32 0x00000000#32) reducesTo_S100000x128_S128_d0 h_S_)
      (broadcastInDim S128 ![] bcast_S_S128 (constant (F := Ideal) S_ .f32 0x47C35000#32)))
    (broadcastInDim S128 ![] bcast_S_S128 (constant (F := Ideal) S_ .f32 0x3727C5AC#32)))

/-- A vector of 128 entries as a one-row array. -/
def asRow (v : FVec Ideal S128 .f32) : FVec Ideal S1x128 .f32 := shapeCast _ v shapeCasts_S128_S1x128

/-- The edge scores: `Σ_k z (src e, k) · z (dst e, k)`, from zero. -/
def scores (z : FVec Ideal S100000x64 .f32) (s t : IVec S1600000 32) : FVec Ideal S1600000 .f32 :=
  Host.reduceAdd
    (mulf
      (Host.gather gather_S100000x64_S1600000x1_S1600000x64_1_0_n_n_0_1_164 z
        (broadcastInDim S1600000x1 ![0] bcast_S1600000_S1600000x1_0 (norm s)))
      (Host.gather gather_S100000x64_S1600000x1_S1600000x64_1_0_n_n_0_1_164 z
        (broadcastInDim S1600000x1 ![0] bcast_S1600000_S1600000x1_0 (norm t))))
    (constant (F := Ideal) S_ .f32 0x00000000#32) reducesTo_S1600000x64_S1600000_d1 h_S_

end Cert.KernelIdeal.Stages

end
-- ==== Proof.Spec.lean ====
/-
  The two pieces of arithmetic the kernel's launched bodies compute, as functions of whole arrays read at an index.

  * `linear A B`: the matrix product, entry `(p, q)` being the sum over `k` of `A (p, k) · B (k, q)`.
  * `normRelu H mean invstd gamma beta`: the batch normalisation followed by the rectifier, entry `(p, k)` being
    `max (((H (p, k) − mean k) · invstd k) · gamma k + beta k) 0`, the four rows given as `[1, K]` arrays.

  Everything is over the extended reals; nothing here needs a finiteness hypothesis.
-/
import Idealize.ShloMosaic.Lib.ValueIdx
import Idealize.ShloMosaic.PureOps.Ideal.Laws

noncomputable section

open scoped BigOperators

namespace Cert.Gcn

open Idealize.ShloMosaic Idealize.ShloMosaic.ValueIdx

/-- The matrix product `A · B` of an `[M, K]` and a `[K, N]` array, entry by entry. -/
def linear {M K N : Nat} (A : FVec Ideal ⟨2, ![M, K]⟩ .f32) (B : FVec Ideal ⟨2, ![K, N]⟩ .f32) :
    FVec Ideal ⟨2, ![M, N]⟩ .f32 :=
  fun i => ∑ k : Fin K, A (ix2 (i 0) k) * B (ix2 k (i 1))

theorem linear_apply {M K N : Nat} (A : FVec Ideal ⟨2, ![M, K]⟩ .f32) (B : FVec Ideal ⟨2, ![K, N]⟩ .f32)
    (p : Fin M) (q : Fin N) : linear A B (ix2 p q) = ∑ k : Fin K, A (ix2 p k) * B (ix2 k q) := rfl

/-- Batch normalisation with given statistics, then the rectifier: column `k` of `H` is shifted by `mean k`, scaled
    by `invstd k` and by `gamma k`, shifted by `beta k`, and cut off below at zero. -/
def normRelu {M K : Nat} (H : FVec Ideal ⟨2, ![M, K]⟩ .f32) (mean invstd gamma beta : FVec Ideal ⟨2, ![1, K]⟩ .f32) :
    FVec Ideal ⟨2, ![M, K]⟩ .f32 :=
  fun i => max (((H i - mean (ix2 0 (i 1))) * invstd (ix2 0 (i 1))) * gamma (ix2 0 (i 1)) + beta (ix2 0 (i 1))) 0

theorem normRelu_apply {M K : Nat} (H : FVec Ideal ⟨2, ![M, K]⟩ .f32) (mean invstd gamma beta : FVec Ideal ⟨2, ![1, K]⟩ .f32)
    (p : Fin M) (k : Fin K) :
    normRelu H mean invstd gamma beta (ix2 p k)
      = max (((H (ix2 p k) - mean (ix2 0 k)) * invstd (ix2 0 k)) * gamma (ix2 0 k) + beta (ix2 0 k)) 0 := rfl

end Cert.Gcn

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.PayloadLinear.lean ====
/-
  The arithmetic of the first launched body at the ideal values, read at one entry.

  The body narrows its two operands (the identity on extended reals), multiplies the `[5000, 256]` block by the
  `[256, 128]` matrix into a zero accumulator, and stores the product: entry `(p, q)` is the sum over `k` of
  `x (p, k) · w (k, q)`.
-/
import proofs.«115060_j18459769439026_2_alg».proof.Proof.Gen.KernelIdeal.Skeleton
import proofs.«115060_j18459769439026_2_alg».proof.Proof.LibPlainProduct

noncomputable section

open scoped BigOperators

namespace Cert.Gcn.Region

open Cert.KernelIdeal Cert.KernelIdeal.Gen Idealize.ShloMosaic Idealize.ShloMosaic.ValueIdx

/-- The first body's stored block at `(p, q)`: row `p` of the row block against column `q` of the weight matrix. -/
theorem k0_pay1_apply (x : Vec Ideal S5000x256 .f32) (w : Vec Ideal S256x128 .f32) (p : Fin 5000) (q : Fin 128) :
    k0_pay1 (F := Ideal) x w (ix2 p q) = ∑ k : Fin 256, x (ix2 p k) * w (ix2 k q) :=
  Cert.PlainProduct.matmul_nn_apply (φ₁ := .bf16) (φ₂ := .bf16) dot_S5000x256_S256x128_S5000x128_1_0_0_1_n_n_wf none x w p q

end Cert.Gcn.Region

end
-- ==== Proof.RegionLinear.lean ====
/-
  REGION 0 of the kernel at the ideal values: the first launched body, over its 20 grid points, leaves in the
  `[100000, 128]` result array the matrix product of the `[100000, 256]` operand and the `[256, 128]` weights.

  Grid point `t` is handed rows `5000 t … 5000 t + 4999` of the operand and the whole weight matrix, multiplies them, and
  writes the `[5000, 128]` product back to the same rows of the result.  So what point `t` writes back is row block `t` of
  the product of the whole arrays (`flushed0_eq`); row `r` of the result lies in the block of point `r / 5000`
  (`cover0`); hence the array after the last point is the product (`final0`).  Everything is stated at arbitrary
  contents `V` of the buffers when the region is entered.
-/
import proofs.«115060_j18459769439026_2_alg».proof.Proof.Gen.KernelIdeal.Frame
import proofs.«115060_j18459769439026_2_alg».proof.Proof.Spec
import proofs.«115060_j18459769439026_2_alg».proof.Proof.PayloadLinear
import Idealize.ShloMosaic.Lib.Pipeline.Value

noncomputable section

open scoped BigOperators

namespace Cert.Gcn.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem zero_offsets : (![0, 0] : Fin 2 → Nat) = fun _ => 0 := funext fun a => by fin_cases a <;> rfl

/-! ## The arrays the three windows range over -/

/-- Window 0 ranges over the `[100000, 256]` operand, window 1 over the `[256, 128]` weights, window 2 over the
    `[100000, 128]` result. -/
theorem arrRef0_0 : Pipeline.arrRef spec0 0 = main_arg0 := rfl
theorem arrRef0_1 : Pipeline.arrRef spec0 1 = main_arg2 := rfl
theorem arrRef0_2 : Pipeline.arrRef spec0 2 = main_v13 := rfl

/-! ## Which rows each grid point touches -/

/-- Grid point `t` takes row block `t` of the `[100000, 256]` operand, the whole weight matrix, and row block `t` of
    the `[100000, 128]` result (decided over the 20 points). -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point `t`, entry `(p, k)`: row `5000 t + p` of the operand. -/
theorem iblk0_0_apply (c : Dev nD) (t : Fin cfg0.N) (p : Fin 5000) (k : Fin 256) (r : Fin 100000)
    (hr : r.val = 5000 * t.val + p.val) :
    (iblk0 V c 0 t : Vec Ideal S5000x256 .f32) (ix2 p k) = (V c main_arg0 : FVec Ideal S100000x256 .f32) (ix2 r k) := by
  obtain ⟨e0, e1, -⟩ := index0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weight matrix's block at any point is the whole matrix. -/
theorem iblk0_1_apply (c : Dev nD) (t : Fin cfg0.N) (k : Fin 256) (q : Fin 128) :
    (iblk0 V c 1 t : Vec Ideal S256x128 .f32) (ix2 k q) = (V c main_arg2 : FVec Ideal S256x128 .f32) (ix2 k q) := by
  obtain ⟨-, -, e0, e1, -⟩ := index0 t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-! ## What a point writes back, and the array after the last point -/

/-- The product of the two arrays as the region finds them. -/
abbrev product0 (c : Dev nD) : FVec Ideal S100000x128 .f32 :=
  Cert.Gcn.linear (V c main_arg0 : FVec Ideal S100000x256 .f32) (V c main_arg2 : FVec Ideal S256x128 .f32)

/-- Point `t` writes back row block `t` of the product: its entry `(p, q)` is row `5000 t + p` of the operand
    against column `q` of the weights. -/
theorem flushed0_eq (c : Dev nD) (t : Fin cfg0.N) :
    (dat0 (F := Ideal) V c).flushed 2 t = ((cfg0.win 2).blk t).view.read (Elt Ideal) (product0 V c) := by
  show (cfg0.win 2).cut (grid0.coords t) ((dat0 (F := Ideal) V c).after 2 t) = _
  rw [after0_2]
  unfold out0_2
  rw [View.canon_unit_zero zero_offsets]
  simp only [View.ld_unit_zero (S := S5000x256) zero_offsets, View.ld_unit_zero (S := S256x128) zero_offsets]
  obtain ⟨-, -, -, -, e0, e1⟩ := index0 t
  funext j
  obtain ⟨p, q, rfl⟩ : ∃ (p : Fin 5000) (q : Fin 128), j = ix2 p q := ⟨j 0, j 1, eq_ix2 j⟩
  have ht : t.val < 20 := t.isLt
  have hemb : ((cfg0.win 2).blk t).view.emb (ix2 p q) = (ix2 (⟨5000 * t.val + p.val, by omega⟩ : Fin 100000) q : S100000x128.Idx) := by
    funext a
    apply Fin.ext
    match a with
    | ⟨0, _⟩ => show win0_2.index t (0 : Fin 2) * 5000 + 1 * p.val = 5000 * t.val + p.val; rw [e0]; omega
    | ⟨1, _⟩ => show win0_2.index t (1 : Fin 2) * 128 + 1 * q.val = q.val; rw [e1]; omega
  rw [View.read_apply, hemb]
  show k0_pay1 (F := Ideal) (iblk0 V c 0 t) (iblk0 V c 1 t) (ix2 p q) = Cert.Gcn.linear _ _ (ix2 _ q)
  rw [k0_pay1_apply, Cert.Gcn.linear_apply]
  refine Finset.sum_congr rfl fun k _ => ?_
  rw [iblk0_0_apply V c t p k ⟨5000 * t.val + p.val, by omega⟩ rfl, iblk0_1_apply V c t k q]

/-- Row `r` of the result lies in the block of point `r / 5000`: the 20 blocks of 5000 rows cover the array. -/
theorem cover0 (i : S100000x128.Idx) :
    ∃ t : Fin cfg0.N, (cfg0.win 2).flush t = true ∧ i ∈ ((cfg0.win 2).blk t).view.set := by
  have h0 : (i 0).val < 100000 := idx2_lt0 i
  have h1 : (i 1).val < 128 := idx2_lt1 i
  let t : Fin cfg0.N := ⟨(i 0).val / 5000, by show _ < 20; omega⟩
  obtain ⟨-, -, -, -, e0, e1⟩ := index0 t
  have e0' : win0_2.index t (0 : Fin 2) = (i 0).val / 5000 := e0
  refine ⟨t, flush0_2 t, ?_⟩
  show i ∈ ((View.whole main_v13).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; rw [e0']; omega
  | ⟨1, _⟩ => show win0_2.index t (1 : Fin 2) * 128 ≤ (i 1).val ∧ (i 1).val < win0_2.index t (1 : Fin 2) * 128 + 128; rw [e1]; omega

/-- REGION 0: after its last point the `[100000, 128]` result array holds the product of the `[100000, 256]` operand
    and the `[256, 128]` weights, as the region found them. -/
theorem final0 (c : Dev nD) :
    (dat0 (F := Ideal) V c).arrAt 2 cfg0.N
      = Cert.Gcn.linear (V c main_arg0 : FVec Ideal S100000x256 .f32) (V c main_arg2 : FVec Ideal S256x128 .f32) :=
  (dat0 (F := Ideal) V c).arrAt_eq_of_cover 2 (product0 V c) (fun t _ => flushed0_eq V c t) cover0

end Cert.Gcn.Region

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.PayloadNormLinear.lean ====
/-
  The arithmetic of the second launched body at the ideal values, read at one entry.

  The body normalises its `[5000, 128]` block column by column — subtract the mean, multiply by the inverse deviation and
  by the gain, add the bias, the four given as `[1, 128]` rows broadcast down the block —, cuts the result off below at
  zero, narrows it and the `[128, 64]` weights (the identity on extended reals), and multiplies them into a zero
  accumulator: entry `(p, q)` is the sum over `k` of the rectified normalised `(p, k)` entry times `w (k, q)`.
-/
import proofs.«115060_j18459769439026_2_alg».proof.Proof.Gen.KernelIdeal.Skeleton
import proofs.«115060_j18459769439026_2_alg».proof.Proof.LibPlainProduct
import proofs.«115060_j18459769439026_2_alg».proof.Proof.LibRowsProduct

noncomputable section

open scoped BigOperators

namespace Cert.Gcn.Region

open Cert.KernelIdeal Cert.KernelIdeal.Gen Idealize.ShloMosaic Idealize.ShloMosaic.ValueIdx

/-- The normalised, rectified block the second body feeds to its product, at `(p, k)`: column `k` of the block shifted
    by the mean, scaled by the inverse deviation and by the gain, shifted by the bias, cut off below at zero (the four
    `[1, 128]` rows broadcast down the block's 5000 rows). -/
theorem k1_pay1_apply (h : Vec Ideal S5000x128 .f32) (mean invstd gamma beta : Vec Ideal S1x128 .f32)
    (w : Vec Ideal S128x64 .f32) (p : Fin 5000) (q : Fin 64) :
    k1_pay1 (F := Ideal) h mean invstd gamma beta w (ix2 p q)
      = ∑ k : Fin 128, max (((h (ix2 p k) - mean (ix2 0 k)) * invstd (ix2 0 k)) * gamma (ix2 0 k) + beta (ix2 0 k)) 0
          * w (ix2 k q) := by
  refine (Cert.PlainProduct.matmul_nn_apply (φ₁ := .bf16) (φ₂ := .bf16)
    dot_S5000x128_S128x64_S5000x64_1_0_0_1_n_n_wf none _ _ p q).trans ?_
  refine Finset.sum_congr rfl fun k _ => ?_
  congr 1
  show max (((shapeCast S5000x128 h shapeCasts_S5000x128_S5000x128 (ix2 p k)
        - broadcastTo S5000x128 (shapeCast S1x128 mean shapeCasts_S1x128_S1x128) broadcasts_S1x128_S5000x128 (ix2 p k))
      * broadcastTo S5000x128 (shapeCast S1x128 invstd shapeCasts_S1x128_S1x128) broadcasts_S1x128_S5000x128 (ix2 p k))
      * broadcastTo S5000x128 (shapeCast S1x128 gamma shapeCasts_S1x128_S1x128) broadcasts_S1x128_S5000x128 (ix2 p k)
      + broadcastTo S5000x128 (shapeCast S1x128 beta shapeCasts_S1x128_S1x128) broadcasts_S1x128_S5000x128 (ix2 p k))
      (Ideal.ofBits .f32 0x00000000#32) = _
  rw [Ideal.ofBits_zero_f32]
  simp only [shapeCast_self, Cert.RowsProduct.broadcastTo_1n_an_apply]

end Cert.Gcn.Region

end
-- ==== Proof.RegionNormLinear.lean ====
/-
  REGION 1 of the kernel at the ideal values: the second launched body, over its 20 grid points, leaves in the
  `[100000, 64]` result array the batch-normalised, rectified `[100000, 128]` operand times the `[128, 64]` weights.

  Grid point `t` is handed rows `5000 t … 5000 t + 4999` of the operand, the four `[1, 128]` rows (mean, inverse
  deviation, gain, bias) and the weight matrix whole, normalises and rectifies the block, multiplies it by the weights, and
  writes the `[5000, 64]` product back to the same rows of the result.  So what point `t` writes back is row block `t` of
  the whole-array expression (`flushed1_eq`); row `r` of the result lies in the block of point `r / 5000` (`cover1`);
  hence the array after the last point is that expression (`final1`).  Everything is stated at arbitrary contents `V` of
  the buffers when the region is entered.
-/
import proofs.«115060_j18459769439026_2_alg».proof.Proof.Gen.KernelIdeal.Frame
import proofs.«115060_j18459769439026_2_alg».proof.Proof.Spec
import proofs.«115060_j18459769439026_2_alg».proof.Proof.PayloadNormLinear
import Idealize.ShloMosaic.Lib.Pipeline.Value

noncomputable section

open scoped BigOperators

namespace Cert.Gcn.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem zero_offsets1 : (![0, 0] : Fin 2 → Nat) = fun _ => 0 := funext fun a => by fin_cases a <;> rfl

/-! ## The arrays the seven windows range over -/

/-- Window 0 ranges over the `[100000, 128]` operand, windows 1 to 4 over the mean, inverse-deviation, gain and bias
    rows, window 5 over the `[128, 64]` weights, window 6 over the `[100000, 64]` result. -/
theorem arrRef1_0 : Pipeline.arrRef spec1 0 = main_v37 := rfl
theorem arrRef1_1 : Pipeline.arrRef spec1 1 = main_v51 := rfl
theorem arrRef1_2 : Pipeline.arrRef spec1 2 = main_v52 := rfl
theorem arrRef1_3 : Pipeline.arrRef spec1 3 = main_v53 := rfl
theorem arrRef1_4 : Pipeline.arrRef spec1 4 = main_v54 := rfl
theorem arrRef1_5 : Pipeline.arrRef spec1 5 = main_arg6 := rfl
theorem arrRef1_6 : Pipeline.arrRef spec1 6 = main_v55 := rfl

/-! ## Which rows each grid point touches -/

/-- Grid point `t` takes row block `t` of the `[100000, 128]` operand and writes row block `t` of the
    `[100000, 64]` result (decided over the 20 points). -/
theorem index1_rows : ∀ t : Fin cfg1.N,
    win1_0.index t (0 : Fin 2) = t.val ∧ win1_0.index t (1 : Fin 2) = 0
    ∧ win1_6.index t (0 : Fin 2) = t.val ∧ win1_6.index t (1 : Fin 2) = 0 :=
  (by decide +kernel : ∀ t : Fin grid1.N, _)

/-- The four `[1, 128]` rows and the `[128, 64]` weights are taken whole at every point (decided over the 20 points). -/
theorem index1_whole : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The operand's block at point `t`, entry `(p, k)`: row `5000 t + p` of the operand. -/
theorem iblk1_0_apply (c : Dev nD) (t : Fin cfg1.N) (p : Fin 5000) (k : Fin 128) (r : Fin 100000)
    (hr : r.val = 5000 * t.val + p.val) :
    (iblk1 V c 0 t : Vec Ideal S5000x128 .f32) (ix2 p k) = (V c main_v37 : FVec Ideal S100000x128 .f32) (ix2 r k) := by
  obtain ⟨e0, e1, -⟩ := index1_rows t
  unfold iblk1
  rw [View.read_apply]
  show V c main_v37 _ = V c main_v37 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The mean row's block at any point is the whole `[1, 128]` row. -/
theorem iblk1_1_apply (c : Dev nD) (t : Fin cfg1.N) (z : Fin 1) (k : Fin 128) :
    (iblk1 V c 1 t : Vec Ideal S1x128 .f32) (ix2 z k) = (V c main_v51 : FVec Ideal S1x128 .f32) (ix2 z k) := by
  obtain ⟨e0, e1⟩ := (index1_whole t).1
  unfold iblk1
  rw [View.read_apply]
  show V c main_v51 _ = V c main_v51 _
  congr 1
  funext a
  apply Fin.ext
  match a with
  | ⟨0, _⟩ => show win1_1.index t (0 : Fin 2) * 1 + 1 * z.val = z.val; rw [e0]; omega
  | ⟨1, _⟩ => show win1_1.index t (1 : Fin 2) * 128 + 1 * k.val = k.val; rw [e1]; omega

/-- The inverse-deviation row's block at any point is the whole `[1, 128]` row. -/
theorem iblk1_2_apply (c : Dev nD) (t : Fin cfg1.N) (z : Fin 1) (k : Fin 128) :
    (iblk1 V c 2 t : Vec Ideal S1x128 .f32) (ix2 z k) = (V c main_v52 : FVec Ideal S1x128 .f32) (ix2 z k) := by
  obtain ⟨e0, e1⟩ := (index1_whole t).2.1
  unfold iblk1
  rw [View.read_apply]
  show V c main_v52 _ = V c main_v52 _
  congr 1
  funext a
  apply Fin.ext
  match a with
  | ⟨0, _⟩ => show win1_2.index t (0 : Fin 2) * 1 + 1 * z.val = z.val; rw [e0]; omega
  | ⟨1, _⟩ => show win1_2.index t (1 : Fin 2) * 128 + 1 * k.val = k.val; rw [e1]; omega

/-- The gain row's block at any point is the whole `[1, 128]` row. -/
theorem iblk1_3_apply (c : Dev nD) (t : Fin cfg1.N) (z : Fin 1) (k : Fin 128) :
    (iblk1 V c 3 t : Vec Ideal S1x128 .f32) (ix2 z k) = (V c main_v53 : FVec Ideal S1x128 .f32) (ix2 z k) := by
  obtain ⟨e0, e1⟩ := (index1_whole t).2.2.1
  unfold iblk1
  rw [View.read_apply]
  show V c main_v53 _ = V c main_v53 _
  congr 1
  funext a
  apply Fin.ext
  match a with
  | ⟨0, _⟩ => show win1_3.index t (0 : Fin 2) * 1 + 1 * z.val = z.val; rw [e0]; omega
  | ⟨1, _⟩ => show win1_3.index t (1 : Fin 2) * 128 + 1 * k.val = k.val; rw [e1]; omega

/-- The bias row's block at any point is the whole `[1, 128]` row. -/
theorem iblk1_4_apply (c : Dev nD) (t : Fin cfg1.N) (z : Fin 1) (k : Fin 128) :
    (iblk1 V c 4 t : Vec Ideal S1x128 .f32) (ix2 z k) = (V c main_v54 : FVec Ideal S1x128 .f32) (ix2 z k) := by
  obtain ⟨e0, e1⟩ := (index1_whole t).2.2.2.1
  unfold iblk1
  rw [View.read_apply]
  show V c main_v54 _ = V c main_v54 _
  congr 1
  funext a
  apply Fin.ext
  match a with
  | ⟨0, _⟩ => show win1_4.index t (0 : Fin 2) * 1 + 1 * z.val = z.val; rw [e0]; omega
  | ⟨1, _⟩ => show win1_4.index t (1 : Fin 2) * 128 + 1 * k.val = k.val; rw [e1]; omega

/-- The weight matrix's block at any point is the whole matrix. -/
theorem iblk1_5_apply (c : Dev nD) (t : Fin cfg1.N) (k : Fin 128) (q : Fin 64) :
    (iblk1 V c 5 t : Vec Ideal S128x64 .f32) (ix2 k q) = (V c main_arg6 : FVec Ideal S128x64 .f32) (ix2 k q) := by
  obtain ⟨e0, e1⟩ := (index1_whole t).2.2.2.2
  unfold iblk1
  rw [View.read_apply]
  show V c main_arg6 _ = V c main_arg6 _
  congr 1
  funext a
  apply Fin.ext
  match a with
  | ⟨0, _⟩ => show win1_5.index t (0 : Fin 2) * 128 + 1 * k.val = k.val; rw [e0]; omega
  | ⟨1, _⟩ => show win1_5.index t (1 : Fin 2) * 64 + 1 * q.val = q.val; rw [e1]; omega

/-! ## What a point writes back, and the array after the last point -/

/-- The normalised, rectified operand times the weights, of the arrays as the region finds them. -/
abbrev product1 (c : Dev nD) : FVec Ideal S100000x64 .f32 :=
  Cert.Gcn.linear
    (Cert.Gcn.normRelu (V c main_v37 : FVec Ideal S100000x128 .f32) (V c main_v51 : FVec Ideal S1x128 .f32)
      (V c main_v52 : FVec Ideal S1x128 .f32) (V c main_v53 : FVec Ideal S1x128 .f32) (V c main_v54 : FVec Ideal S1x128 .f32))
    (V c main_arg6 : FVec Ideal S128x64 .f32)

/-- Point `t` writes back row block `t` of that product: its entry `(p, q)` is row `5000 t + p` of the normalised,
    rectified operand against column `q` of the weights. -/
theorem flushed1_eq (c : Dev nD) (t : Fin cfg1.N) :
    (dat1 (F := Ideal) V c).flushed 6 t = ((cfg1.win 6).blk t).view.read (Elt Ideal) (product1 V c) := by
  show (cfg1.win 6).cut (grid1.coords t) ((dat1 (F := Ideal) V c).after 6 t) = _
  rw [after1_6]
  unfold out1_6
  rw [View.canon_unit_zero zero_offsets1]
  simp only [View.ld_unit_zero (S := S5000x128) zero_offsets1, View.ld_unit_zero (S := S1x128) zero_offsets1,
    View.ld_unit_zero (S := S128x64) zero_offsets1]
  obtain ⟨-, -, e0, e1⟩ := index1_rows t
  funext j
  obtain ⟨p, q, rfl⟩ : ∃ (p : Fin 5000) (q : Fin 64), j = ix2 p q := ⟨j 0, j 1, eq_ix2 j⟩
  have ht : t.val < 20 := t.isLt
  have hemb : ((cfg1.win 6).blk t).view.emb (ix2 p q) = (ix2 (⟨5000 * t.val + p.val, by omega⟩ : Fin 100000) q : S100000x64.Idx) := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 64 + 1 * q.val = q.val; rw [e1]; omega
  rw [View.read_apply, hemb]
  show k1_pay1 (F := Ideal) (iblk1 V c 0 t) (iblk1 V c 1 t) (iblk1 V c 2 t) (iblk1 V c 3 t) (iblk1 V c 4 t) (iblk1 V c 5 t) (ix2 p q)
    = Cert.Gcn.linear _ _ (ix2 _ q)
  rw [k1_pay1_apply, Cert.Gcn.linear_apply]
  refine Finset.sum_congr rfl fun k _ => ?_
  rw [Cert.Gcn.normRelu_apply, iblk1_0_apply V c t p k ⟨5000 * t.val + p.val, by omega⟩ rfl, iblk1_1_apply V c t 0 k,
    iblk1_2_apply V c t 0 k, iblk1_3_apply V c t 0 k, iblk1_4_apply V c t 0 k, iblk1_5_apply V c t k q]

/-- Row `r` of the result lies in the block of point `r / 5000`: the 20 blocks of 5000 rows cover the array. -/
theorem cover1 (i : S100000x64.Idx) :
    ∃ t : Fin cfg1.N, (cfg1.win 6).flush t = true ∧ i ∈ ((cfg1.win 6).blk t).view.set := by
  have h0 : (i 0).val < 100000 := idx2_lt0 i
  have h1 : (i 1).val < 64 := idx2_lt1 i
  let t : Fin cfg1.N := ⟨(i 0).val / 5000, by show _ < 20; omega⟩
  obtain ⟨-, -, e0, e1⟩ := index1_rows t
  have e0' : win1_6.index t (0 : Fin 2) = (i 0).val / 5000 := e0
  refine ⟨t, flush1_6 t, ?_⟩
  show i ∈ ((View.whole main_v55).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; rw [e0']; omega
  | ⟨1, _⟩ => show win1_6.index t (1 : Fin 2) * 64 ≤ (i 1).val ∧ (i 1).val < win1_6.index t (1 : Fin 2) * 64 + 64; rw [e1]; omega

/-- REGION 1: after its last point the `[100000, 64]` result array holds the normalised, rectified `[100000, 128]`
    operand times the `[128, 64]` weights, of the arrays as the region found them. -/
theorem final1 (c : Dev nD) :
    (dat1 (F := Ideal) V c).arrAt 6 cfg1.N
      = Cert.Gcn.linear
          (Cert.Gcn.normRelu (V c main_v37 : FVec Ideal S100000x128 .f32) (V c main_v51 : FVec Ideal S1x128 .f32)
            (V c main_v52 : FVec Ideal S1x128 .f32) (V c main_v53 : FVec Ideal S1x128 .f32) (V c main_v54 : FVec Ideal S1x128 .f32))
          (V c main_arg6 : FVec Ideal S128x64 .f32) :=
  (dat1 (F := Ideal) V c).arrAt_eq_of_cover 6 (product1 V c) (fun t _ => flushed1_eq V c t) cover1

end Cert.Gcn.Region

end
-- ==== Proof.KernelValue.lean ====
/-
  What the idealized kernel program computes, as one function of its eight arguments.

  With `d = dis`, `s = src`, `t = dst` of the edge list: the first region leaves `h0 = x · W1`; the host stretch after it
  the aggregation `h = aggregate128 h0 b1 d s t` and the column statistics of `h`; the second region leaves
  `z0 = normRelu h (mean h) (invstd h) gamma beta · W2`; the last stretch `z = aggregate64 z0 b2 d s t` and the edge scores
  `Σ_k z (src e, k) · z (dst e, k)`.  Each boundary's buffer contents are walked back to the launch memory: a buffer no
  later stretch or region writes keeps its contents.
-/
import proofs.«115060_j18459769439026_2_alg».proof.Proof.KernelRun
import proofs.«115060_j18459769439026_2_alg».proof.Proof.KernelStages
import proofs.«115060_j18459769439026_2_alg».proof.Proof.RegionLinear
import proofs.«115060_j18459769439026_2_alg».proof.Proof.RegionNormLinear
import Idealize.ShloMosaic.Lib.StableHlo.Run

set_option maxRecDepth 16384
set_option maxHeartbeats 4000000

noncomputable section

namespace Cert.KernelIdeal.KernelValue

open Cert.KernelIdeal Cert.KernelIdeal.Gen
open Idealize.ShloMosaic Idealize.ShloMosaic.TcCoe Idealize.SL.Sem Idealize.ShloMosaic.StableHlo

/-- The program's result as a function of its arguments. -/
def result (x0 : FVec Ideal S100000x256 .f32) (x1 : IVec S2x1600000 32) (x2 : FVec Ideal S256x128 .f32)
    (x3 x4 x5 : FVec Ideal S128 .f32) (x6 : FVec Ideal S128x64 .f32) (x7 : FVec Ideal S64 .f32) : FVec Ideal S1600000 .f32 :=
  Stages.scores
    (Stages.aggregate64
      (Cert.Gcn.linear
        (Cert.Gcn.normRelu (Stages.aggregate128 (Cert.Gcn.linear x0 x2) x3 (Stages.dis x1) (Stages.src x1) (Stages.dst x1))
          (Stages.asRow (Stages.mean (Stages.aggregate128 (Cert.Gcn.linear x0 x2) x3 (Stages.dis x1) (Stages.src x1) (Stages.dst x1))))
          (Stages.asRow (Stages.invstd (Stages.aggregate128 (Cert.Gcn.linear x0 x2) x3 (Stages.dis x1) (Stages.src x1) (Stages.dst x1))))
          (Stages.asRow x4) (Stages.asRow x5))
        x6)
      x7 (Stages.dis x1) (Stages.src x1) (Stages.dst x1))
    (Stages.src x1) (Stages.dst x1)

/-! ## The three host stretches, from any contents `W` -/

section Stretches
variable (W : Valuation τ sig (Elt Ideal))

theorem stretch0_v1 : StableHlo.after hostOps0 W (Proc.devRef .tc main_v1) = Stages.src (W (Proc.devRef .tc main_arg1)) := by
  after_results; rfl
theorem stretch0_v3 : StableHlo.after hostOps0 W (Proc.devRef .tc main_v3) = Stages.dst (W (Proc.devRef .tc main_arg1)) := by
  after_results; rfl
theorem stretch0_v12 : StableHlo.after hostOps0 W (Proc.devRef .tc main_v12) = Stages.dis (W (Proc.devRef .tc main_arg1)) := by
  after_results; rfl
theorem stretch0_arg0 : StableHlo.after hostOps0 W (Proc.devRef .tc main_arg0) = W (Proc.devRef .tc main_arg0) := by after_results
theorem stretch0_arg2 : StableHlo.after hostOps0 W (Proc.devRef .tc main_arg2) = W (Proc.devRef .tc main_arg2) := by after_results
theorem stretch0_arg3 : StableHlo.after hostOps0 W (Proc.devRef .tc main_arg3) = W (Proc.devRef .tc main_arg3) := by after_results
theorem stretch0_arg4 : StableHlo.after hostOps0 W (Proc.devRef .tc main_arg4) = W (Proc.devRef .tc main_arg4) := by after_results
theorem stretch0_arg5 : StableHlo.after hostOps0 W (Proc.devRef .tc main_arg5) = W (Proc.devRef .tc main_arg5) := by after_results
theorem stretch0_arg6 : StableHlo.after hostOps0 W (Proc.devRef .tc main_arg6) = W (Proc.devRef .tc main_arg6) := by after_results
theorem stretch0_arg7 : StableHlo.after hostOps0 W (Proc.devRef .tc main_arg7) = W (Proc.devRef .tc main_arg7) := by after_results

theorem stretch1_v37 : StableHlo.after hostOps1 W (Proc.devRef .tc main_v37) = (Stages.aggregate128 (W (Proc.devRef .tc main_v13)) (W (Proc.devRef .tc main_arg3)) (W (Proc.devRef .tc main_v12)) (W (Proc.devRef .tc main_v1)) (W (Proc.devRef .tc main_v3))) := by
  after_results_simp <;> rfl
theorem stretch1_v51 : StableHlo.after hostOps1 W (Proc.devRef .tc main_v51) = Stages.asRow (Stages.mean (Stages.aggregate128 (W (Proc.devRef .tc main_v13)) (W (Proc.devRef .tc main_arg3)) (W (Proc.devRef .tc main_v12)) (W (Proc.devRef .tc main_v1)) (W (Proc.devRef .tc main_v3)))) := by
  after_results_simp <;> rfl
theorem stretch1_v52 : StableHlo.after hostOps1 W (Proc.devRef .tc main_v52) = Stages.asRow (Stages.invstd (Stages.aggregate128 (W (Proc.devRef .tc main_v13)) (W (Proc.devRef .tc main_arg3)) (W (Proc.devRef .tc main_v12)) (W (Proc.devRef .tc main_v1)) (W (Proc.devRef .tc main_v3)))) := by
  after_results_simp <;> rfl
theorem stretch1_v53 : StableHlo.after hostOps1 W (Proc.devRef .tc main_v53) = Stages.asRow (W (Proc.devRef .tc main_arg4)) := by
  after_results_simp <;> rfl
theorem stretch1_v54 : StableHlo.after hostOps1 W (Proc.devRef .tc main_v54) = Stages.asRow (W (Proc.devRef .tc main_arg5)) := by
  after_results_simp <;> rfl
theorem stretch1_v1 : StableHlo.after hostOps1 W (Proc.devRef .tc main_v1) = W (Proc.devRef .tc main_v1) := by after_results
theorem stretch1_v3 : StableHlo.after hostOps1 W (Proc.devRef .tc main_v3) = W (Proc.devRef .tc main_v3) := by after_results
theorem stretch1_v12 : StableHlo.after hostOps1 W (Proc.devRef .tc main_v12) = W (Proc.devRef .tc main_v12) := by after_results
theorem stretch1_arg6 : StableHlo.after hostOps1 W (Proc.devRef .tc main_arg6) = W (Proc.devRef .tc main_arg6) := by after_results
theorem stretch1_arg7 : StableHlo.after hostOps1 W (Proc.devRef .tc main_arg7) = W (Proc.devRef .tc main_arg7) := by after_results

theorem stretch2_v95 : StableHlo.after hostOps2 W (Proc.devRef .tc main_v95)
    = Stages.scores (Stages.aggregate64 (W (Proc.devRef .tc main_v55)) (W (Proc.devRef .tc main_arg7)) (W (Proc.devRef .tc main_v12)) (W (Proc.devRef .tc main_v1)) (W (Proc.devRef .tc main_v3)))
        (W (Proc.devRef .tc main_v1)) (W (Proc.devRef .tc main_v3)) := by
  after_results_simp <;> rfl

end Stretches

/-! ## The buffer contents at each boundary, walked back to the launch memory -/

variable (m : (ℓ : Loc nD τ sig) → Buf (Elt Ideal) ℓ) (ρ : Dev nD → PrngReg) (c : Dev nD)

theorem W1_v1 : W1 m ρ c (Proc.devRef .tc main_v1) = Stages.src (m ((c : Thread nD τ).loc main_arg1)) := stretch0_v1 (W0 m ρ c)
theorem W1_v3 : W1 m ρ c (Proc.devRef .tc main_v3) = Stages.dst (m ((c : Thread nD τ).loc main_arg1)) := stretch0_v3 (W0 m ρ c)
theorem W1_v12 : W1 m ρ c (Proc.devRef .tc main_v12) = Stages.dis (m ((c : Thread nD τ).loc main_arg1)) := stretch0_v12 (W0 m ρ c)
theorem W1_arg0 : W1 m ρ c (Proc.devRef .tc main_arg0) = (m ((c : Thread nD τ).loc main_arg0)) := stretch0_arg0 (W0 m ρ c)
theorem W1_arg2 : W1 m ρ c (Proc.devRef .tc main_arg2) = (m ((c : Thread nD τ).loc main_arg2)) := stretch0_arg2 (W0 m ρ c)
theorem W1_arg3 : W1 m ρ c (Proc.devRef .tc main_arg3) = (m ((c : Thread nD τ).loc main_arg3)) := stretch0_arg3 (W0 m ρ c)
theorem W1_arg4 : W1 m ρ c (Proc.devRef .tc main_arg4) = (m ((c : Thread nD τ).loc main_arg4)) := stretch0_arg4 (W0 m ρ c)
theorem W1_arg5 : W1 m ρ c (Proc.devRef .tc main_arg5) = (m ((c : Thread nD τ).loc main_arg5)) := stretch0_arg5 (W0 m ρ c)
theorem W1_arg6 : W1 m ρ c (Proc.devRef .tc main_arg6) = (m ((c : Thread nD τ).loc main_arg6)) := stretch0_arg6 (W0 m ρ c)
theorem W1_arg7 : W1 m ρ c (Proc.devRef .tc main_arg7) = (m ((c : Thread nD τ).loc main_arg7)) := stretch0_arg7 (W0 m ρ c)

/-- The first region leaves the product `x · W1` in its output array. -/
theorem W2_v13 : W2 m ρ c (Proc.devRef .tc main_v13) = Cert.Gcn.linear (m ((c : Thread nD τ).loc main_arg0)) (m ((c : Thread nD τ).loc main_arg2)) := by
  refine (W2_arr m ρ c 2).trans ((Cert.Gcn.Region.final0 (V1 m ρ) c).trans ?_)
  show Cert.Gcn.linear (W1 m ρ c (Proc.devRef .tc main_arg0)) (W1 m ρ c (Proc.devRef .tc main_arg2)) = _
  rw [W1_arg0, W1_arg2]
theorem W2_v1 : W2 m ρ c (Proc.devRef .tc main_v1) = Stages.src (m ((c : Thread nD τ).loc main_arg1)) := (W2_of_ne m ρ c main_v1 (by decide)).trans (W1_v1 m ρ c)
theorem W2_v3 : W2 m ρ c (Proc.devRef .tc main_v3) = Stages.dst (m ((c : Thread nD τ).loc main_arg1)) := (W2_of_ne m ρ c main_v3 (by decide)).trans (W1_v3 m ρ c)
theorem W2_v12 : W2 m ρ c (Proc.devRef .tc main_v12) = Stages.dis (m ((c : Thread nD τ).loc main_arg1)) := (W2_of_ne m ρ c main_v12 (by decide)).trans (W1_v12 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)

/-- The first layer's output, after the stretch between the regions. -/
theorem W3_v37 : W3 m ρ c (Proc.devRef .tc main_v37) = (Stages.aggregate128 (Cert.Gcn.linear (m ((c : Thread nD τ).loc main_arg0)) (m ((c : Thread nD τ).loc main_arg2))) (m ((c : Thread nD τ).loc main_arg3)) (Stages.dis (m ((c : Thread nD τ).loc main_arg1))) (Stages.src (m ((c : Thread nD τ).loc main_arg1))) (Stages.dst (m ((c : Thread nD τ).loc main_arg1)))) := by
  refine (stretch1_v37 (W2 m ρ c)).trans ?_
  rw [W2_v13, W2_arg3, W2_v12, W2_v1, W2_v3]
theorem W3_v51 : W3 m ρ c (Proc.devRef .tc main_v51) = Stages.asRow (Stages.mean (Stages.aggregate128 (Cert.Gcn.linear (m ((c : Thread nD τ).loc main_arg0)) (m ((c : Thread nD τ).loc main_arg2))) (m ((c : Thread nD τ).loc main_arg3)) (Stages.dis (m ((c : Thread nD τ).loc main_arg1))) (Stages.src (m ((c : Thread nD τ).loc main_arg1))) (Stages.dst (m ((c : Thread nD τ).loc main_arg1))))) := by
  refine (stretch1_v51 (W2 m ρ c)).trans ?_
  rw [W2_v13, W2_arg3, W2_v12, W2_v1, W2_v3]
theorem W3_v52 : W3 m ρ c (Proc.devRef .tc main_v52) = Stages.asRow (Stages.invstd (Stages.aggregate128 (Cert.Gcn.linear (m ((c : Thread nD τ).loc main_arg0)) (m ((c : Thread nD τ).loc main_arg2))) (m ((c : Thread nD τ).loc main_arg3)) (Stages.dis (m ((c : Thread nD τ).loc main_arg1))) (Stages.src (m ((c : Thread nD τ).loc main_arg1))) (Stages.dst (m ((c : Thread nD τ).loc main_arg1))))) := by
  refine (stretch1_v52 (W2 m ρ c)).trans ?_
  rw [W2_v13, W2_arg3, W2_v12, W2_v1, W2_v3]
theorem W3_v53 : W3 m ρ c (Proc.devRef .tc main_v53) = Stages.asRow (m ((c : Thread nD τ).loc main_arg4)) := by
  refine (stretch1_v53 (W2 m ρ c)).trans ?_
  rw [W2_arg4]
theorem W3_v54 : W3 m ρ c (Proc.devRef .tc main_v54) = Stages.asRow (m ((c : Thread nD τ).loc main_arg5)) := by
  refine (stretch1_v54 (W2 m ρ c)).trans ?_
  rw [W2_arg5]
theorem W3_v1 : W3 m ρ c (Proc.devRef .tc main_v1) = Stages.src (m ((c : Thread nD τ).loc main_arg1)) := (stretch1_v1 (W2 m ρ c)).trans (W2_v1 m ρ c)
theorem W3_v3 : W3 m ρ c (Proc.devRef .tc main_v3) = Stages.dst (m ((c : Thread nD τ).loc main_arg1)) := (stretch1_v3 (W2 m ρ c)).trans (W2_v3 m ρ c)
theorem W3_v12 : W3 m ρ c (Proc.devRef .tc main_v12) = Stages.dis (m ((c : Thread nD τ).loc main_arg1)) := (stretch1_v12 (W2 m ρ c)).trans (W2_v12 m ρ c)
theorem W3_arg6 : W3 m ρ c (Proc.devRef .tc main_arg6) = (m ((c : Thread nD τ).loc main_arg6)) := (stretch1_arg6 (W2 m ρ c)).trans (W2_arg6 m ρ c)
theorem W3_arg7 : W3 m ρ c (Proc.devRef .tc main_arg7) = (m ((c : Thread nD τ).loc main_arg7)) := (stretch1_arg7 (W2 m ρ c)).trans (W2_arg7 m ρ c)

/-- The second region leaves the normalised, rectified first layer times `W2` in its output array. -/
theorem W4_v55 : W4 m ρ c (Proc.devRef .tc main_v55)
    = Cert.Gcn.linear (Cert.Gcn.normRelu (Stages.aggregate128 (Cert.Gcn.linear (m ((c : Thread nD τ).loc main_arg0)) (m ((c : Thread nD τ).loc main_arg2))) (m ((c : Thread nD τ).loc main_arg3)) (Stages.dis (m ((c : Thread nD τ).loc main_arg1))) (Stages.src (m ((c : Thread nD τ).loc main_arg1))) (Stages.dst (m ((c : Thread nD τ).loc main_arg1)))) (Stages.asRow (Stages.mean (Stages.aggregate128 (Cert.Gcn.linear (m ((c : Thread nD τ).loc main_arg0)) (m ((c : Thread nD τ).loc main_arg2))) (m ((c : Thread nD τ).loc main_arg3)) (Stages.dis (m ((c : Thread nD τ).loc main_arg1))) (Stages.src (m ((c : Thread nD τ).loc main_arg1))) (Stages.dst (m ((c : Thread nD τ).loc main_arg1)))))) (Stages.asRow (Stages.invstd (Stages.aggregate128 (Cert.Gcn.linear (m ((c : Thread nD τ).loc main_arg0)) (m ((c : Thread nD τ).loc main_arg2))) (m ((c : Thread nD τ).loc main_arg3)) (Stages.dis (m ((c : Thread nD τ).loc main_arg1))) (Stages.src (m ((c : Thread nD τ).loc main_arg1))) (Stages.dst (m ((c : Thread nD τ).loc main_arg1))))))
        (Stages.asRow (m ((c : Thread nD τ).loc main_arg4))) (Stages.asRow (m ((c : Thread nD τ).loc main_arg5)))) (m ((c : Thread nD τ).loc main_arg6)) := by
  refine (W4_arr m ρ c 6).trans ((Cert.Gcn.Region.final1 (V3 m ρ) c).trans ?_)
  show Cert.Gcn.linear (Cert.Gcn.normRelu (W3 m ρ c (Proc.devRef .tc main_v37)) (W3 m ρ c (Proc.devRef .tc main_v51)) (W3 m ρ c (Proc.devRef .tc main_v52))
      (W3 m ρ c (Proc.devRef .tc main_v53)) (W3 m ρ c (Proc.devRef .tc main_v54))) (W3 m ρ c (Proc.devRef .tc main_arg6)) = _
  rw [W3_v37, W3_v51, W3_v52, W3_v53, W3_v54, W3_arg6]
theorem W4_v1 : W4 m ρ c (Proc.devRef .tc main_v1) = Stages.src (m ((c : Thread nD τ).loc main_arg1)) := (W4_of_ne m ρ c main_v1 (by decide)).trans (W3_v1 m ρ c)
theorem W4_v3 : W4 m ρ c (Proc.devRef .tc main_v3) = Stages.dst (m ((c : Thread nD τ).loc main_arg1)) := (W4_of_ne m ρ c main_v3 (by decide)).trans (W3_v3 m ρ c)
theorem W4_v12 : W4 m ρ c (Proc.devRef .tc main_v12) = Stages.dis (m ((c : Thread nD τ).loc main_arg1)) := (W4_of_ne m ρ c main_v12 (by decide)).trans (W3_v12 m ρ c)
theorem W4_arg7 : W4 m ρ c (Proc.devRef .tc main_arg7) = (m ((c : Thread nD τ).loc main_arg7)) := (W4_of_ne m ρ c main_arg7 (by decide)).trans (W3_arg7 m ρ c)

/-- THE RESULT: what the last stretch leaves in the result array is `result` of the launch contents of the arguments. -/
theorem W5_v95 : W5 m ρ c (Proc.devRef .tc main_v95)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (stretch2_v95 (W4 m ρ c)).trans ?_
  rw [W4_v55, W4_arg7, W4_v12, W4_v1, W4_v3]
  rfl

/-- The program's run with the result at `result` of the arguments. -/
theorem run_result : θ_run defs (onTc (τ := τ) (main (F := Ideal))) ⟨m, fun _ => 0, ρ⟩ (fun r => ∀ c : Dev nD,
      r.2.mem ((c.tc : Thread nD τ).loc main_v95)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W5_v95 m ρ c), (h c).2⟩) (run (F := Ideal) m ρ)

end Cert.KernelIdeal.KernelValue

end
-- ==== Proof.Words.lean ====
/-
  The two word-level steps by which an edge's endpoint names a row of a node table of 100000 rows.

  `nrm w`: a word that is negative as a signed integer is shifted up by the number of nodes (so that −1 names the last
  row); any other word is kept.  `row w`: the word read as a signed integer and brought into `[0, 99999]`.
  An endpoint `w` is looked up at `row (nrm w)`.  A word that, read signed, IS a node number `k` is kept by `nrm` and
  names row `k`.
-/
import Idealize.ShloMosaic.Lib.ValueIdx

noncomputable section

namespace Cert.Gcn

open Idealize.ShloMosaic Idealize.ShloMosaic.ValueIdx

/-- A negative word shifted up by the number of nodes, any other word kept. -/
def nrm (w : BitVec 32) : BitVec 32 := Scalar.select (IntOp.cmpi .slt w 0#32) (w + 100000#32) w

/-- The row a word names: the word read signed, brought into `[0, 99999]`. -/
def row (w : BitVec 32) : Fin 100000 := ⟨min w.toInt.toNat (100000 - 1), by omega⟩

end Cert.Gcn

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibJoinIota.lean ====
/-
  Two vectors joined end to end, the vector of positions, and the words that name a position — read at one element.

  * Joining: for `a : [A]` and `b : [B]` the vector `[C]`, `C = A + B`, that is `a` followed by `b` reads at `j` the
    entry `a j` when `j < A` and the entry `b (j − A)` when `A ≤ j`.
  * Positions: the vector `[N]` whose entry `n` is the 32-bit word of `n`; while `N ≤ 2³¹` that word, read as a signed
    integer, is `n` itself.
  * Words that name a position: a 32-bit word whose signed integer is a natural number `k < K` (with `K < 2³¹`) is
    not negative, so the rule "add `K` to a negative index" leaves it as it is, and bringing its integer into
    `[0, K − 1]` gives `k`. Stated for every such `K` and at `K = 100000`.
  * The comparison, the sum and the choice of integer vectors read at an index are those of the entries.
-/
import Idealize.ShloMosaic.Lib.ValueIdx
import Idealize.ShloMosaic.Lib.Pipeline.Value
import Idealize.ShloMosaic.Lib.WordArith
import Idealize.ShloMosaic.Lib.Affine

noncomputable section

namespace Cert.JoinIota

open Idealize.ShloMosaic Idealize.ShloMosaic.ValueIdx

/-! ## Two vectors joined end to end -/

section Join
variable {α : Type} {A B C : Nat}

/-- The joined vector is as long as the two together. -/
theorem join_extent (h : Shape.Concatenates [(⟨1, ![A]⟩ : Shape), ⟨1, ![B]⟩] ⟨1, ![C]⟩ 0) : C = A + B := by
  have e : A + (B + 0) = C := h.2.2
  omega

/-- THE JOINED VECTOR READ IN ITS FIRST PART: at `j < A` it is the first vector at `j`. -/
theorem join_left_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : j.val < A) :
    concatenate ⟨1, ![C]⟩ 0 [⟨⟨1, ![A]⟩, a⟩, ⟨⟨1, ![B]⟩, b⟩] h (ix1 j) = a (ix1 ⟨j.val, hj⟩) :=
  concatenate_pair_apply_left 0 a b h (ix1 j) rfl (ix1 ⟨j.val, hj⟩) (fun c => match c with | ⟨0, _⟩ => rfl)

/-- THE JOINED VECTOR READ IN ITS SECOND PART: at `A ≤ j` it is the second vector at `j − A`. -/
theorem join_right_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : A ≤ j.val) :
    concatenate ⟨1, ![C]⟩ 0 [⟨⟨1, ![A]⟩, a⟩, ⟨⟨1, ![B]⟩, b⟩] h (ix1 j)
      = b (ix1 ⟨j.val - A, by have := join_extent h; have := j.isLt; omega⟩) :=
  concatenate_pair_apply_right 0 a b h (ix1 j) rfl rfl (ix1 ⟨j.val - A, by have := join_extent h; have := j.isLt; omega⟩)
    (fun c hc => match c, hc with | ⟨0, _⟩, hc => absurd rfl hc)
    (by show j.val - A + A = j.val; omega)

end Join

/-! ## The vector of positions -/

section Iota
variable {N : Nat}

/-- THE VECTOR OF POSITIONS READ AT `n`: the 32-bit word of `n`. -/
theorem iota_vec_apply (n : Fin N) : iotaInDim ⟨1, ![N]⟩ 32 0 (ix1 n) = BitVec.ofNat 32 n.val := rfl

/-- While there are at most `2³¹` positions, the word of position `n` read signed is `n`. -/
theorem iota_toInt (hN : N ≤ 2 ^ 31) (n : Fin N) : (BitVec.ofNat 32 n.val).toInt = (n.val : Int) :=
  WordArith.toInt_ofNat_small n.val (by have := n.isLt; omega)

end Iota

/-! ## Comparison, sum and choice of integer vectors at an index -/

section Pointwise
variable {s : Shape} {w : Nat}

/-- A comparison of integer vectors at an index compares the entries. -/
theorem cmpi_apply (p : CmpIPredicate) (x y : IVec s w) (i : s.Idx) : cmpi p x y i = IntOp.cmpi p (x i) (y i) := rfl
/-- A sum of integer vectors at an index adds the entries (as words, wrapping). -/
theorem addi_apply (x y : IVec s w) (i : s.Idx) : addi x y i = x i + y i := rfl
/-- An integer constant reads its word everywhere. -/
theorem constantI_apply (b : BitVec w) (i : s.Idx) : constantI s w b i = b := rfl

end Pointwise

/-! ## Words that name a position -/

section Words

/-- A word whose signed integer is a natural number is not below zero: the comparison "below zero" answers no. -/
theorem slt_zero_of_hit (v : BitVec 32) (k : Nat) (h : v.toInt = (k : Int)) : IntOp.cmpi .slt v 0#32 = 0#1 := by
  refine eq_zero_of_ne_one fun h1 => ?_
  have := IntOp.cmpi_slt.mp h1
  rw [h] at this
  have h0 : (0#32 : BitVec 32).toInt = 0 := by decide
  rw [h0] at this
  omega

/-- "Add `K` to a negative index" leaves a word that names a position as it is, whatever word `K` is. -/
theorem norm_of_hit' (v c : BitVec 32) (k : Nat) (h : v.toInt = (k : Int)) :
    Scalar.select (IntOp.cmpi .slt v 0#32) (v + c) v = v := by
  rw [slt_zero_of_hit v k h, select_zero]

/-- … in particular at `K = 100000`. -/
theorem norm_of_hit (v : BitVec 32) (k : Nat) (_hk : k < 100000) (h : v.toInt = (k : Int)) :
    Scalar.select (IntOp.cmpi .slt v 0#32) (v + 100000#32) v = v :=
  norm_of_hit' v 100000#32 k h

/-- Bringing the integer of a word that names position `k < K` into `[0, K − 1]` gives `k`. -/
theorem clamp_of_hit' (K : Nat) (v : BitVec 32) (k : Nat) (hk : k < K) (h : v.toInt = (k : Int)) :
    min v.toInt.toNat (K - 1) = k := by
  rw [h]
  omega

/-- … in particular at `K = 100000`. -/
theorem clamp_of_hit (v : BitVec 32) (k : Nat) (hk : k < 100000) (h : v.toInt = (k : Int)) :
    min v.toInt.toNat (100000 - 1) = k :=
  clamp_of_hit' 100000 v k hk h

end Words

end Cert.JoinIota

end
-- ==== Proof.KernelAggregate128.lean ====
/-
  The kernel program's aggregation over the edges, read at one entry.

  `aggregate128 h0 b d s t` is built from whole-array operations: the table `h0` scaled row by row by `d`; the rows
  of that scaled table taken at the sources `s` (each source looked up by its normalised word, read signed and brought
  into the range of the rows); those rows added onto a table of zeros at the rows the targets `t` name; the result
  scaled row by row by `d` again; plus `d² · h0` for every node's own loop; plus the bias repeated down the rows.
  Read at `(i, j)`, over the extended reals, that is

    `d i · (0 + Σ_{e : t e = i} h0 (r e, j) · d (r e)) + (d i · d i) · h0 (i, j) + b j`

  where `r e` is the row the source of edge `e` names.  Column `j` of the result depends on column `j` of `h0` only.
-/
import proofs.«115060_j18459769439026_2_alg».proof.Proof.KernelStages
import proofs.«115060_j18459769439026_2_alg».proof.Proof.Words
import proofs.«115060_j18459769439026_2_alg».proof.Proof.LibRowGatherScatter
import proofs.«115060_j18459769439026_2_alg».proof.Proof.LibHostBroadcast
import proofs.«115060_j18459769439026_2_alg».proof.Proof.LibJoinIota

noncomputable section

open scoped BigOperators

namespace Cert.KernelIdeal.Stages

open Cert.KernelIdeal Cert.KernelIdeal.Facts₀ Idealize.ShloMosaic Idealize.ShloMosaic.ValueIdx

/-- The word an endpoint is looked up by, at edge `e`: the endpoint's word, shifted up by the number of nodes when it
    is negative. -/
theorem norm_apply (s : IVec S1600000 32) (e : Fin 1600000) : norm s (ix1 e) = Cert.Gcn.nrm (s (ix1 e)) := by
  unfold norm Cert.Gcn.nrm
  rw [select_apply, Cert.JoinIota.cmpi_apply, Cert.JoinIota.addi_apply, Cert.HostBroadcast.scalar_apply,
    Cert.HostBroadcast.scalar_apply, Cert.JoinIota.constantI_apply, Cert.JoinIota.constantI_apply]

/-- A vector over the nodes repeated along the 128 columns, at `(i, j)`: its entry `i`. -/
theorem cols128_apply (v : FVec Ideal S100000 .f32) (i : Fin 100000) (j : Fin 128) :
    cols128 v (ix2 i j) = v (ix1 i) :=
  Cert.HostBroadcast.col_apply v bcast_S100000_S100000x1_0 bcast_S100000x1_S100000x128_0_1 i j

/-- A vector of 128 entries repeated down the rows, at `(i, j)`: its entry `j`. -/
theorem rows128_apply (v : FVec Ideal S128 .f32) (i : Fin 100000) (j : Fin 128) :
    rows128 v (ix2 i j) = v (ix1 j) :=
  Cert.HostBroadcast.row_apply v bcast_S128_S1x128_1 bcast_S1x128_S100000x128_0_1 i j

/-- The rows of a table taken at a column of words, at `(e, j)`: the table at the row word `e` names, same column. -/
theorem gather_rows128 (x : FVec Ideal S100000x128 .f32) (idx : IVec S1600000x1 32) (e : Fin 1600000) (j : Fin 128) :
    Host.gather gather_S100000x128_S1600000x1_S1600000x128_1_0_n_n_0_1_1128 x idx (ix2 e j)
      = x (ix2 (Cert.RowGatherScatter.rowOf (N := 100000) (by norm_num) idx e) j) :=
  Cert.RowGatherScatter.gather_rows_apply (by norm_num) _ x idx e j

/-- Rows added onto a table at the rows a column of words names, at `(i, j)`: the table's entry plus the sum, over the
    words that name row `i`, of their rows' entries in column `j`. -/
theorem scatter_rows128 (x : FVec Ideal S100000x128 .f32) (idx : IVec S1600000x1 32) (u : FVec Ideal S1600000x128 .f32)
    (i : Fin 100000) (j : Fin 128) :
    Host.scatterAdd scatter_S100000x128_S1600000x1_S1600000x128_1_0_0_1 x idx u (ix2 i j)
      = x (ix2 i j) + ∑ e ∈ Cert.RowGatherScatter.hits idx i, u (ix2 e j) :=
  Cert.RowGatherScatter.scatterAdd_rows_apply _ x idx u i j

/-- The rows of a table taken at the normalised sources, at `(e, j)`: the table at the row the source of edge `e`
    names, same column. -/
theorem gathered128_apply (x : FVec Ideal S100000x128 .f32) (s : IVec S1600000 32) (e : Fin 1600000) (j : Fin 128) :
    Host.gather gather_S100000x128_S1600000x1_S1600000x128_1_0_n_n_0_1_1128 x
        (broadcastInDim S1600000x1 ![0] bcast_S1600000_S1600000x1_0 (norm s)) (ix2 e j)
      = x (ix2 (Cert.Gcn.row (Cert.Gcn.nrm (s (ix1 e)))) j) := by
  rw [gather_rows128]
  refine congrArg (fun r => x (ix2 r j)) (Fin.ext ?_)
  show min ((broadcastInDim S1600000x1 ![0] bcast_S1600000_S1600000x1_0 (norm s)) (ix2 e 0)).toInt.toNat (100000 - 1)
    = min (Cert.Gcn.nrm (s (ix1 e))).toInt.toNat (100000 - 1)
  rw [Cert.HostBroadcast.col_one_apply, norm_apply]

/-- Rows added onto a table of zeros at the rows the targets name, at `(i, j)`: zero plus the sum, over the edges whose
    target is `i`, of their rows' entries in column `j`. -/
theorem scattered128_apply (u : FVec Ideal S1600000x128 .f32) (t : IVec S1600000 32) (i : Fin 100000) (j : Fin 128) :
    Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 t) u (ix2 i j)
      = 0 + ∑ e ∈ Finset.univ.filter (fun e : Fin 1600000 => (t (ix1 e)).toInt = (i.val : Int)), u (ix2 e j) := by
  rw [scatter_rows128, Cert.HostBroadcast.scalar_apply, constant_apply, Ideal.ofBits_zero_f32]
  refine congrArg (fun S => 0 + S) (Finset.sum_congr ?_ fun _ _ => rfl)
  unfold Cert.RowGatherScatter.hits
  refine Finset.filter_congr fun e _ => ?_
  rw [Cert.HostBroadcast.col_one_apply]

/-- THE AGGREGATION AT `(i, j)`. -/
theorem aggregate128_apply (h0 : FVec Ideal S100000x128 .f32) (b : FVec Ideal S128 .f32) (d : FVec Ideal S100000 .f32)
    (s t : IVec S1600000 32) (i : Fin 100000) (j : Fin 128) :
    aggregate128 h0 b d s t (ix2 i j)
      = (d (ix1 i) * (0 + ∑ e ∈ Finset.univ.filter (fun e : Fin 1600000 => (t (ix1 e)).toInt = (i.val : Int)),
            h0 (ix2 (Cert.Gcn.row (Cert.Gcn.nrm (s (ix1 e)))) j) * d (ix1 (Cert.Gcn.row (Cert.Gcn.nrm (s (ix1 e))))))
          + (d (ix1 i) * d (ix1 i)) * h0 (ix2 i j))
        + b (ix1 j) := by
  unfold aggregate128
  rw [addf_apply, addf_apply, mulf_apply, mulf_apply, cols128_apply, cols128_apply, rows128_apply, mulf_apply,
    scattered128_apply]
  refine congrArg (fun S => (d (ix1 i) * (0 + S) + (d (ix1 i) * d (ix1 i)) * h0 (ix2 i j)) + b (ix1 j)) ?_
  refine Finset.sum_congr rfl fun e _ => ?_
  rw [gathered128_apply, mulf_apply, cols128_apply]

end Cert.KernelIdeal.Stages

end
-- ==== Proof.KernelAggregate64.lean ====
/-
  The kernel program's aggregation over the edges, read at one entry.

  `aggregate64 h0 b d s t` is built from whole-array operations: the table `h0` scaled row by row by `d`; the rows
  of that scaled table taken at the sources `s` (each source looked up by its normalised word, read signed and brought
  into the range of the rows); those rows added onto a table of zeros at the rows the targets `t` name; the result
  scaled row by row by `d` again; plus `d² · h0` for every node's own loop; plus the bias repeated down the rows.
  Read at `(i, j)`, over the extended reals, that is

    `d i · (0 + Σ_{e : t e = i} h0 (r e, j) · d (r e)) + (d i · d i) · h0 (i, j) + b j`

  where `r e` is the row the source of edge `e` names.  Column `j` of the result depends on column `j` of `h0` only.
-/
import proofs.«115060_j18459769439026_2_alg».proof.Proof.KernelAggregate128
import proofs.«115060_j18459769439026_2_alg».proof.Proof.Words
import proofs.«115060_j18459769439026_2_alg».proof.Proof.LibRowGatherScatter
import proofs.«115060_j18459769439026_2_alg».proof.Proof.LibHostBroadcast
import proofs.«115060_j18459769439026_2_alg».proof.Proof.LibJoinIota

noncomputable section

open scoped BigOperators

namespace Cert.KernelIdeal.Stages

open Cert.KernelIdeal Cert.KernelIdeal.Facts₀ Idealize.ShloMosaic Idealize.ShloMosaic.ValueIdx

/-- A vector over the nodes repeated along the 64 columns, at `(i, j)`: its entry `i`. -/
theorem cols64_apply (v : FVec Ideal S100000 .f32) (i : Fin 100000) (j : Fin 64) :
    cols64 v (ix2 i j) = v (ix1 i) :=
  Cert.HostBroadcast.col_apply v bcast_S100000_S100000x1_0 bcast_S100000x1_S100000x64_0_1 i j

/-- A vector of 64 entries repeated down the rows, at `(i, j)`: its entry `j`. -/
theorem rows64_apply (v : FVec Ideal S64 .f32) (i : Fin 100000) (j : Fin 64) :
    rows64 v (ix2 i j) = v (ix1 j) :=
  Cert.HostBroadcast.row_apply v bcast_S64_S1x64_1 bcast_S1x64_S100000x64_0_1 i j

/-- The rows of a table taken at a column of words, at `(e, j)`: the table at the row word `e` names, same column. -/
theorem gather_rows64 (x : FVec Ideal S100000x64 .f32) (idx : IVec S1600000x1 32) (e : Fin 1600000) (j : Fin 64) :
    Host.gather gather_S100000x64_S1600000x1_S1600000x64_1_0_n_n_0_1_164 x idx (ix2 e j)
      = x (ix2 (Cert.RowGatherScatter.rowOf (N := 100000) (by norm_num) idx e) j) :=
  Cert.RowGatherScatter.gather_rows_apply (by norm_num) _ x idx e j

/-- Rows added onto a table at the rows a column of words names, at `(i, j)`: the table's entry plus the sum, over the
    words that name row `i`, of their rows' entries in column `j`. -/
theorem scatter_rows64 (x : FVec Ideal S100000x64 .f32) (idx : IVec S1600000x1 32) (u : FVec Ideal S1600000x64 .f32)
    (i : Fin 100000) (j : Fin 64) :
    Host.scatterAdd scatter_S100000x64_S1600000x1_S1600000x64_1_0_0_1 x idx u (ix2 i j)
      = x (ix2 i j) + ∑ e ∈ Cert.RowGatherScatter.hits idx i, u (ix2 e j) :=
  Cert.RowGatherScatter.scatterAdd_rows_apply _ x idx u i j

/-- The rows of a table taken at the normalised sources, at `(e, j)`: the table at the row the source of edge `e`
    names, same column. -/
theorem gathered64_apply (x : FVec Ideal S100000x64 .f32) (s : IVec S1600000 32) (e : Fin 1600000) (j : Fin 64) :
    Host.gather gather_S100000x64_S1600000x1_S1600000x64_1_0_n_n_0_1_164 x
        (broadcastInDim S1600000x1 ![0] bcast_S1600000_S1600000x1_0 (norm s)) (ix2 e j)
      = x (ix2 (Cert.Gcn.row (Cert.Gcn.nrm (s (ix1 e)))) j) := by
  rw [gather_rows64]
  refine congrArg (fun r => x (ix2 r j)) (Fin.ext ?_)
  show min ((broadcastInDim S1600000x1 ![0] bcast_S1600000_S1600000x1_0 (norm s)) (ix2 e 0)).toInt.toNat (100000 - 1)
    = min (Cert.Gcn.nrm (s (ix1 e))).toInt.toNat (100000 - 1)
  rw [Cert.HostBroadcast.col_one_apply, norm_apply]

/-- Rows added onto a table of zeros at the rows the targets name, at `(i, j)`: zero plus the sum, over the edges whose
    target is `i`, of their rows' entries in column `j`. -/
theorem scattered64_apply (u : FVec Ideal S1600000x64 .f32) (t : IVec S1600000 32) (i : Fin 100000) (j : Fin 64) :
    Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 t) u (ix2 i j)
      = 0 + ∑ e ∈ Finset.univ.filter (fun e : Fin 1600000 => (t (ix1 e)).toInt = (i.val : Int)), u (ix2 e j) := by
  rw [scatter_rows64, Cert.HostBroadcast.scalar_apply, constant_apply, Ideal.ofBits_zero_f32]
  refine congrArg (fun S => 0 + S) (Finset.sum_congr ?_ fun _ _ => rfl)
  unfold Cert.RowGatherScatter.hits
  refine Finset.filter_congr fun e _ => ?_
  rw [Cert.HostBroadcast.col_one_apply]

/-- THE AGGREGATION AT `(i, j)`. -/
theorem aggregate64_apply (h0 : FVec Ideal S100000x64 .f32) (b : FVec Ideal S64 .f32) (d : FVec Ideal S100000 .f32)
    (s t : IVec S1600000 32) (i : Fin 100000) (j : Fin 64) :
    aggregate64 h0 b d s t (ix2 i j)
      = (d (ix1 i) * (0 + ∑ e ∈ Finset.univ.filter (fun e : Fin 1600000 => (t (ix1 e)).toInt = (i.val : Int)),
            h0 (ix2 (Cert.Gcn.row (Cert.Gcn.nrm (s (ix1 e)))) j) * d (ix1 (Cert.Gcn.row (Cert.Gcn.nrm (s (ix1 e))))))
          + (d (ix1 i) * d (ix1 i)) * h0 (ix2 i j))
        + b (ix1 j) := by
  unfold aggregate64
  rw [addf_apply, addf_apply, mulf_apply, mulf_apply, cols64_apply, cols64_apply, rows64_apply, mulf_apply,
    scattered64_apply]
  refine congrArg (fun S => (d (ix1 i) * (0 + S) + (d (ix1 i) * d (ix1 i)) * h0 (ix2 i j)) + b (ix1 j)) ?_
  refine Finset.sum_congr rfl fun e _ => ?_
  rw [gathered64_apply, mulf_apply, cols64_apply]

end Cert.KernelIdeal.Stages

end
-- ==== Proof.LibVectorGatherScatter.lean ====
/-
  Entries of a vector taken by index and added by index, read at one element.

  For a vector `x : [N]` and a column of integers `idx : [E, 1]`:

  * taking entries — the gather whose result `[E]` has at `e` the entry of `x` that `idx (e, 0)` names — reads at `e`
    the entry `x r`, where `r` is `idx (e, 0)` as a signed integer brought into `[0, N − 1]`;
  * adding entries — the scatter that adds entry `e` of `u : [E]` onto the entry of `x` that `idx (e, 0)` names, an
    entry named outside `[0, N)` being dropped — has at `n`, over the extended reals, the entry `x n` plus the sum of
    `u e` over exactly those `e` whose integer `idx (e, 0)` is `n`.

  These are the one-axis siblings of the row gather and the row scatter-add of a table: the operand's only axis is
  the indexed one, so nothing is carried along and entry `e` of the updates lands on one entry of the operand.
-/
import Idealize.ShloMosaic.Lib.ValueIdx
import Idealize.ShloMosaic.PureOps.Ideal.Laws

noncomputable section

open scoped BigOperators

namespace Cert.VectorGatherScatter

open Idealize.ShloMosaic Idealize.ShloMosaic.ValueIdx

/-! ## A rank-1 index set is its one coordinate range -/

/-- A rank-1 index set is the range of its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Taking entries -/

section Gather
variable {α : Type}

/-- The dimension numbers of "take the entries `idx` of an `[N]` vector": the one axis collapsed and indexed, no
    axis carried. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRIES TAKEN, READ AT `e`: the vector at the named entry, the integer `idx (e, 0)` read signed and brought
    into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Adding entries -/

section Scatter

/-- The dimension numbers of "add the entries of `u : [E]` onto the entries `idx` of an `[N]` vector": the one axis
    inserted and indexed, the updates without a window. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e` starts at the integer `idx (e, 0)` read signed; -/
theorem start_vec (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- it has no window: its window coordinate on the one axis is nothing. -/
theorem window_vec (e : Fin E) : (vecScatterDims N E wf).window (ix1 e) 0 = 0 := by
  unfold ScatterDims.window
  rw [dif_neg (show (0 : Fin 1) ∉ (vecScatterDims N E wf).sKept from
    (by decide : (0 : Fin 1) ∉ (List.finRange 1).filter (· ∉ ([0] : List (Fin 1)))))]

/-- WHERE UPDATE `e` LANDS: on `n` exactly when its integer is `n`. -/
theorem resultIdx?_vec (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  constructor
  · intro h
    split at h
    · rename_i hin
      have h' := Option.some.inj h
      have h0 := congrArg (fun f => (f 0).val) h'
      simp only [start_vec, window_vec] at h0
      have hb := hin 0
      rw [start_vec, window_vec] at hb
      have : ((idx (ix2 e 0)).toInt + ((0 : Nat) : Int)).toNat = n.val := h0
      omega
    · exact absurd h (by simp)
  · intro hr
    have h0 : 0 ≤ (vecScatterDims N E wf).start (ix1 e) idx 0 + (vecScatterDims N E wf).window (ix1 e) 0
        ∧ (vecScatterDims N E wf).start (ix1 e) idx 0 + (vecScatterDims N E wf).window (ix1 e) 0
          < (⟨1, ![N]⟩ : Shape).size 0 := by
      rw [start_vec, window_vec, hr]
      have := n.isLt
      refine ⟨by omega, ?_⟩
      show ((n.val : Int) + ((0 : Nat) : Int)) < ((N : Nat) : Int)
      omega
    have hin : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := fun a => match a with
      | ⟨0, _⟩ => h0
    rw [dif_pos hin]
    refine congrArg some ?_
    funext a
    refine Fin.ext ?_
    match a with
    | ⟨0, _⟩ =>
      show ((vecScatterDims N E wf).start (ix1 e) idx 0 + (vecScatterDims N E wf).window (ix1 e) 0).toNat = n.val
      rw [start_vec, window_vec, hr]; omega

/-- The updates that land on entry `n`: the entries of the index column whose integer is `n`. -/
def hits (idx : IVec ⟨2, ![E, 1]⟩ w) (n : Fin N) : Finset (Fin E) :=
  Finset.univ.filter fun e => (idx (ix2 e 0)).toInt = (n.val : Int)

/-- An update is among the hits of `n` exactly when its integer is `n`. -/
theorem mem_hits (idx : IVec ⟨2, ![E, 1]⟩ w) (n : Fin N) (e : Fin E) :
    e ∈ hits idx n ↔ (idx (ix2 e 0)).toInt = (n.val : Int) := by
  unfold hits
  rw [Finset.mem_filter]
  exact ⟨fun h => h.2, fun h => ⟨Finset.mem_univ e, h⟩⟩

/-- THE ENTRIES ADDED, READ AT `n` over the extended reals: the vector's entry plus the sum of the updates that land
    on `n`. -/
theorem scatterAdd_vec_apply (x : FVec Ideal ⟨1, ![N]⟩ .f32) (idx : IVec ⟨2, ![E, 1]⟩ w)
    (u : FVec Ideal ⟨1, ![E]⟩ .f32) (n : Fin N) :
    Host.scatterAdd (vecScatterDims N E wf) x idx u (ix1 n) = x (ix1 n) + ∑ e ∈ hits idx n, u (ix1 e) := by
  show Ideal.hostScatterAdd (vecScatterDims N E wf) x idx u (ix1 n) = _
  unfold Ideal.hostScatterAdd
  refine congrArg (fun s => x (ix1 n) + s) ?_
  rw [Finset.sum_filter, sum_idx1]
  unfold hits
  rw [Finset.sum_filter]
  refine Finset.sum_congr rfl fun e _ => ?_
  by_cases he : (idx (ix2 e 0)).toInt = (n.val : Int)
  · rw [if_pos he, if_pos ((resultIdx?_vec wf idx e n).mpr he)]
  · rw [if_neg he, if_neg (fun h => he ((resultIdx?_vec wf idx e n).mp h))]

end Scatter

end Cert.VectorGatherScatter

end
-- ==== Proof.RefAggregate128.lean ====
/-
  The reference's normalised aggregation of a 128-column array over the edges and the nodes' own loops, read at one
  entry.

  The reference lists every edge and then every node once more as an edge from itself to itself: `s` and `t` are the
  two vectors of 1700000 words so obtained (the sources, the targets).  A word is looked up in a table of 100000 rows
  by first shifting a negative word up by the number of nodes (`norm'`) and then reading it signed and bringing it into
  `[0, 99999]`.  With `d` a vector over the nodes, the aggregation of `h0` has at `(i, j)`

      0 + Σ_{e : t e = i} h0 (row (s e), j) · (d (row (s e)) · d (row (t e)))  +  b j,

  the sum over the listed pairs `e` whose target word is `i`; column `j` depends on column `j` of `h0` only.
  The first 1600000 listed pairs are the edges of the edge list, the last 100000 are the nodes in order.
-/
import proofs.«115060_j18459769439026_2_alg».proof.Proof.Gen.ReferenceIdeal.Read
import proofs.«115060_j18459769439026_2_alg».proof.Proof.KernelStages
import proofs.«115060_j18459769439026_2_alg».proof.Proof.Words
import proofs.«115060_j18459769439026_2_alg».proof.Proof.LibRowGatherScatter
import proofs.«115060_j18459769439026_2_alg».proof.Proof.LibVectorGatherScatter
import proofs.«115060_j18459769439026_2_alg».proof.Proof.LibHostBroadcast
import proofs.«115060_j18459769439026_2_alg».proof.Proof.LibJoinIota

noncomputable section

open scoped BigOperators

namespace Cert.ReferenceIdeal.RefStages

open Cert.ReferenceIdeal Cert.ReferenceIdeal.Facts₀ Idealize.ShloMosaic Idealize.ShloMosaic.ValueIdx

/-! ## The stages -/

/-- The word a row is looked up by: a negative word is shifted up by the number of nodes. -/
def norm' (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The normalised aggregation of a 128-column array over the listed pairs, with the bias, in the reference's own
    operations: the rows of `h0` at the sources, each scaled by `d` at its source times `d` at its target, added onto
    zero at the targets, plus `b` down the rows. -/
def aggregate128 (h0 : FVec Ideal S100000x128 .f32) (b : FVec Ideal S128 .f32) (d : FVec Ideal S100000 .f32)
    (s t : IVec S1700000 32) : FVec Ideal S100000x128 .f32 :=
  addf
    (Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 t)
      (mulf
        (Host.gather gather_S100000x128_S1700000x1_S1700000x128_1_0_n_n_0_1_1128 h0
          (broadcastInDim S1700000x1 ![0] bcast_S1700000_S1700000x1_0 (norm' s)))
        (broadcastInDim S1700000x128 ![0, 1] bcast_S1700000x1_S1700000x128_0_1
          (broadcastInDim S1700000x1 ![0] bcast_S1700000_S1700000x1_0
            (mulf
              (Host.gather gather_S100000_S1700000x1_S1700000_n_0_n_n_0_1_1 d
                (broadcastInDim S1700000x1 ![0] bcast_S1700000_S1700000x1_0 (norm' s)))
              (Host.gather gather_S100000_S1700000x1_S1700000_n_0_n_n_0_1_1 d
                (broadcastInDim S1700000x1 ![0] bcast_S1700000_S1700000x1_0 (norm' t))))))))
    (broadcastInDim S100000x128 ![0, 1] bcast_S1x128_S100000x128_0_1 (broadcastInDim S1x128 ![1] bcast_S128_S1x128_1 b))

/-- The reference's first aggregated array is `aggregate128` of its first product, its bias, its normalisation vector
    and its two listed-pair vectors: the same operations in the same order. -/
theorem val_v45_eq (x0 : FVec Ideal S100000x256 .f32) (x1 : IVec S2x1600000 32) (x2 : FVec Ideal S256x128 .f32)
    (x3 : FVec Ideal S128 .f32) :
    Read.val_main_v45 (F := Ideal) x0 x1 x2 x3
      = aggregate128 (Read.val_main_v4 (F := Ideal) x0 x2) x3 (Read.val_main_v14 (F := Ideal) x1)
          (Read.val_main_v6 (F := Ideal) x1) (Read.val_main_v7 (F := Ideal) x1) := rfl

/-! ## The looked-up word and the two gathers at a listed pair -/

/-- The looked-up word of pair `e` is the word step `nrm` of the pair's word. -/
theorem norm'_apply (s : IVec S1700000 32) (e : Fin 1700000) : norm' s (ix1 e) = Cert.Gcn.nrm (s (ix1 e)) := by
  unfold norm' Cert.Gcn.nrm
  rw [select_apply, Cert.JoinIota.cmpi_apply, Cert.JoinIota.addi_apply, Cert.HostBroadcast.scalar_apply,
    Cert.HostBroadcast.scalar_apply, Cert.JoinIota.constantI_apply, Cert.JoinIota.constantI_apply]

/-- The looked-up words as a column, brought into `[0, 99999]`: the row `row (nrm (s e))`. -/
theorem clamp_norm' (s : IVec S1700000 32) (e : Fin 1700000) :
    min ((broadcastInDim S1700000x1 ![0] bcast_S1700000_S1700000x1_0 (norm' s)) (ix2 e 0)).toInt.toNat (100000 - 1)
      = (Cert.Gcn.row (Cert.Gcn.nrm (s (ix1 e)))).val := by
  rw [Cert.HostBroadcast.col_one_apply, norm'_apply]
  rfl

/-- A vector over the nodes taken at the looked-up words, at pair `e`: its entry `row (nrm (s e))`. -/
theorem gatherVec_apply {α : Type} (d : S100000.Idx → α) (s : IVec S1700000 32) (e : Fin 1700000) :
    Host.gather gather_S100000_S1700000x1_S1700000_n_0_n_n_0_1_1 d
        (broadcastInDim S1700000x1 ![0] bcast_S1700000_S1700000x1_0 (norm' s)) (ix1 e)
      = d (ix1 (Cert.Gcn.row (Cert.Gcn.nrm (s (ix1 e))))) :=
  (Cert.VectorGatherScatter.gather_vec_apply (by norm_num) _ d _ e).trans
    (congrArg (fun r => d (ix1 r)) (Fin.ext (clamp_norm' s e)))

/-- A 128-column table taken by rows at the looked-up words, at `(e, c)`: its entry `(row (nrm (s e)), c)`. -/
theorem gather128_apply {α : Type} (x : S100000x128.Idx → α) (s : IVec S1700000 32) (e : Fin 1700000) (c : Fin 128) :
    Host.gather gather_S100000x128_S1700000x1_S1700000x128_1_0_n_n_0_1_1128 x
        (broadcastInDim S1700000x1 ![0] bcast_S1700000_S1700000x1_0 (norm' s)) (ix2 e c)
      = x (ix2 (Cert.Gcn.row (Cert.Gcn.nrm (s (ix1 e)))) c) :=
  (Cert.RowGatherScatter.gather_rows_apply (by norm_num) _ x _ e c).trans
    (congrArg (fun r => x (ix2 r c)) (Fin.ext (clamp_norm' s e)))

/-- Rows added onto a 128-column table at the words `t`, at `(n, c)`: the table's entry plus the sum over the pairs
    whose word is `n`. -/
theorem scatter128_apply (x : FVec Ideal S100000x128 .f32) (t : IVec S1700000 32) (u : FVec Ideal S1700000x128 .f32)
    (n : Fin 100000) (c : Fin 128) :
    Host.scatterAdd scatter_S100000x128_S1700000x1_S1700000x128_1_0_0_1 x
        (broadcastInDim S1700000x1 ![0] bcast_S1700000_S1700000x1_0 t) u (ix2 n c)
      = x (ix2 n c) + ∑ e ∈ Finset.univ.filter (fun e : Fin 1700000 => (t (ix1 e)).toInt = (n.val : Int)), u (ix2 e c) := by
  refine (Cert.RowGatherScatter.scatterAdd_rows_apply _ x _ u n c).trans ?_
  refine congrArg (fun z => x (ix2 n c) + z) ?_
  unfold Cert.RowGatherScatter.hits
  refine Finset.sum_congr (Finset.filter_congr fun e _ => ?_) fun _ _ => rfl
  rw [Cert.HostBroadcast.col_one_apply]

/-! ## The reading -/

/-- THE AGGREGATION READ AT `(i, j)`: zero plus, over the listed pairs whose target word is `i`, the entry of `h0` in
    the source's row and column `j` times `d` at the source's row times `d` at the target's row; plus `b j`. -/
theorem aggregate128_apply (h0 : FVec Ideal S100000x128 .f32) (b : FVec Ideal S128 .f32) (d : FVec Ideal S100000 .f32)
    (s t : IVec S1700000 32) (i : Fin 100000) (j : Fin 128) :
    aggregate128 h0 b d s t (ix2 i j)
      = (0 + ∑ e ∈ Finset.univ.filter (fun e : Fin 1700000 => (t (ix1 e)).toInt = (i.val : Int)),
            h0 (ix2 (Cert.Gcn.row (Cert.Gcn.nrm (s (ix1 e)))) j)
              * (d (ix1 (Cert.Gcn.row (Cert.Gcn.nrm (s (ix1 e))))) * d (ix1 (Cert.Gcn.row (Cert.Gcn.nrm (t (ix1 e)))))))
          + b (ix1 j) := by
  unfold aggregate128
  rw [addf_apply, Cert.HostBroadcast.row_apply, scatter128_apply, Cert.HostBroadcast.scalar_apply, constant_apply,
    Ideal.ofBits_zero_f32]
  refine congrArg (fun z => (0 + z) + b (ix1 j)) ?_
  refine Finset.sum_congr rfl fun e _ => ?_
  rw [mulf_apply, gather128_apply, Cert.HostBroadcast.col_spread_apply, Cert.HostBroadcast.col_one_apply, mulf_apply,
    gatherVec_apply, gatherVec_apply]

/-! ## The listed pairs: the edges, then the nodes -/

/-- A listed source before position 1600000 is the edge list's source there. -/
theorem v6_left (x1 : IVec S2x1600000 32) (e : Fin 1700000) (he : e.val < 1600000) :
    Read.val_main_v6 (F := Ideal) x1 (ix1 e) = Cert.KernelIdeal.Stages.src x1 (ix1 ⟨e.val, he⟩) :=
  Cert.JoinIota.join_left_apply (Read.val_main_v1 (F := Ideal) x1) (Read.val_main_v5 (F := Ideal))
    concatenates_S1600000_S100000_S1700000_d0 e he

/-- A listed source from position 1600000 on is the word of the node `e − 1600000`. -/
theorem v6_right (x1 : IVec S2x1600000 32) (e : Fin 1700000) (he : 1600000 ≤ e.val) :
    Read.val_main_v6 (F := Ideal) x1 (ix1 e) = BitVec.ofNat 32 (e.val - 1600000) :=
  Cert.JoinIota.join_right_apply (Read.val_main_v1 (F := Ideal) x1) (Read.val_main_v5 (F := Ideal))
    concatenates_S1600000_S100000_S1700000_d0 e he

/-- A listed target before position 1600000 is the edge list's target there. -/
theorem v7_left (x1 : IVec S2x1600000 32) (e : Fin 1700000) (he : e.val < 1600000) :
    Read.val_main_v7 (F := Ideal) x1 (ix1 e) = Cert.KernelIdeal.Stages.dst x1 (ix1 ⟨e.val, he⟩) :=
  Cert.JoinIota.join_left_apply (Read.val_main_v3 (F := Ideal) x1) (Read.val_main_v5 (F := Ideal))
    concatenates_S1600000_S100000_S1700000_d0 e he

/-- A listed target from position 1600000 on is the word of the node `e − 1600000`. -/
theorem v7_right (x1 : IVec S2x1600000 32) (e : Fin 1700000) (he : 1600000 ≤ e.val) :
    Read.val_main_v7 (F := Ideal) x1 (ix1 e) = BitVec.ofNat 32 (e.val - 1600000) :=
  Cert.JoinIota.join_right_apply (Read.val_main_v3 (F := Ideal) x1) (Read.val_main_v5 (F := Ideal))
    concatenates_S1600000_S100000_S1700000_d0 e he

end Cert.ReferenceIdeal.RefStages

end
-- ==== Proof.RefAggregate64.lean ====
/-
  The reference's normalised aggregation of a 64-column array over the edges and the nodes' own loops, read at one
  entry: the second layer's, the same operations as the first layer's on a table of 64 columns.

  With `s` and `t` the two vectors of 1700000 listed words (every edge, then every node as a pair with itself), `d` a
  vector over the nodes and the word steps `nrm`, `row` by which a word names a row, the aggregation of `z0` has at
  `(i, j)`

      0 + Σ_{e : t e = i} z0 (row (s e), j) · (d (row (s e)) · d (row (t e)))  +  b j.

  The second layer's normalisation vector and listed pairs are the first layer's: they are computed again from the
  edge list by the same operations.
-/
import proofs.«115060_j18459769439026_2_alg».proof.Proof.RefAggregate128

noncomputable section

open scoped BigOperators

namespace Cert.ReferenceIdeal.RefStages

open Cert.ReferenceIdeal Cert.ReferenceIdeal.Facts₀ Idealize.ShloMosaic Idealize.ShloMosaic.ValueIdx

/-! ## The stage -/

/-- The normalised aggregation of a 64-column array over the listed pairs, with the bias, in the reference's own
    operations: the rows of `z0` at the sources, each scaled by `d` at its source times `d` at its target, added onto
    zero at the targets, plus `b` down the rows. -/
def aggregate64 (z0 : FVec Ideal S100000x64 .f32) (b : FVec Ideal S64 .f32) (d : FVec Ideal S100000 .f32)
    (s t : IVec S1700000 32) : FVec Ideal S100000x64 .f32 :=
  addf
    (Host.scatterAdd scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 t)
      (mulf
        (Host.gather gather_S100000x64_S1700000x1_S1700000x64_1_0_n_n_0_1_164 z0
          (broadcastInDim S1700000x1 ![0] bcast_S1700000_S1700000x1_0 (norm' s)))
        (broadcastInDim S1700000x64 ![0, 1] bcast_S1700000x1_S1700000x64_0_1
          (broadcastInDim S1700000x1 ![0] bcast_S1700000_S1700000x1_0
            (mulf
              (Host.gather gather_S100000_S1700000x1_S1700000_n_0_n_n_0_1_1 d
                (broadcastInDim S1700000x1 ![0] bcast_S1700000_S1700000x1_0 (norm' s)))
              (Host.gather gather_S100000_S1700000x1_S1700000_n_0_n_n_0_1_1 d
                (broadcastInDim S1700000x1 ![0] bcast_S1700000_S1700000x1_0 (norm' t))))))))
    (broadcastInDim S100000x64 ![0, 1] bcast_S1x64_S100000x64_0_1 (broadcastInDim S1x64 ![1] bcast_S64_S1x64_1 b))

/-- The reference's second aggregated array is `aggregate64` of its second product, its bias, its normalisation
    vector and its two listed-pair vectors: the same operations in the same order. -/
theorem val_v113_eq (x0 : FVec Ideal S100000x256 .f32) (x1 : IVec S2x1600000 32) (x2 : FVec Ideal S256x128 .f32)
    (x3 x4 x5 : FVec Ideal S128 .f32) (x6 : FVec Ideal S128x64 .f32) (x7 : FVec Ideal S64 .f32) :
    Read.val_main_v113 (F := Ideal) x0 x1 x2 x3 x4 x5 x6 x7
      = aggregate64 (Read.val_main_v72 (F := Ideal) x0 x1 x2 x3 x4 x5 x6) x7 (Read.val_main_v82 (F := Ideal) x1)
          (Read.val_main_v74 (F := Ideal) x1) (Read.val_main_v75 (F := Ideal) x1) := rfl

/-- The second layer's normalisation vector is the first layer's. -/
theorem v82_eq_v14 (x1 : IVec S2x1600000 32) : Read.val_main_v82 (F := Ideal) x1 = Read.val_main_v14 (F := Ideal) x1 := rfl

/-- The second layer's listed sources are the first layer's. -/
theorem v74_eq_v6 (x1 : IVec S2x1600000 32) : Read.val_main_v74 (F := Ideal) x1 = Read.val_main_v6 (F := Ideal) x1 := rfl

/-- The second layer's listed targets are the first layer's. -/
theorem v75_eq_v7 (x1 : IVec S2x1600000 32) : Read.val_main_v75 (F := Ideal) x1 = Read.val_main_v7 (F := Ideal) x1 := rfl

/-! ## The gather and the scatter of a 64-column table -/

/-- A 64-column table taken by rows at the looked-up words, at `(e, c)`: its entry `(row (nrm (s e)), c)`. -/
theorem gather64_apply {α : Type} (x : S100000x64.Idx → α) (s : IVec S1700000 32) (e : Fin 1700000) (c : Fin 64) :
    Host.gather gather_S100000x64_S1700000x1_S1700000x64_1_0_n_n_0_1_164 x
        (broadcastInDim S1700000x1 ![0] bcast_S1700000_S1700000x1_0 (norm' s)) (ix2 e c)
      = x (ix2 (Cert.Gcn.row (Cert.Gcn.nrm (s (ix1 e)))) c) :=
  (Cert.RowGatherScatter.gather_rows_apply (by norm_num) _ x _ e c).trans
    (congrArg (fun r => x (ix2 r c)) (Fin.ext (clamp_norm' s e)))

/-- Rows added onto a 64-column table at the words `t`, at `(n, c)`: the table's entry plus the sum over the pairs
    whose word is `n`. -/
theorem scatter64_apply (x : FVec Ideal S100000x64 .f32) (t : IVec S1700000 32) (u : FVec Ideal S1700000x64 .f32)
    (n : Fin 100000) (c : Fin 64) :
    Host.scatterAdd scatter_S100000x64_S1700000x1_S1700000x64_1_0_0_1 x
        (broadcastInDim S1700000x1 ![0] bcast_S1700000_S1700000x1_0 t) u (ix2 n c)
      = x (ix2 n c) + ∑ e ∈ Finset.univ.filter (fun e : Fin 1700000 => (t (ix1 e)).toInt = (n.val : Int)), u (ix2 e c) := by
  refine (Cert.RowGatherScatter.scatterAdd_rows_apply _ x _ u n c).trans ?_
  refine congrArg (fun z => x (ix2 n c) + z) ?_
  unfold Cert.RowGatherScatter.hits
  refine Finset.sum_congr (Finset.filter_congr fun e _ => ?_) fun _ _ => rfl
  rw [Cert.HostBroadcast.col_one_apply]

/-! ## The reading -/

/-- THE AGGREGATION READ AT `(i, j)`: zero plus, over the listed pairs whose target word is `i`, the entry of `z0` in
    the source's row and column `j` times `d` at the source's row times `d` at the target's row; plus `b j`. -/
theorem aggregate64_apply (z0 : FVec Ideal S100000x64 .f32) (b : FVec Ideal S64 .f32) (d : FVec Ideal S100000 .f32)
    (s t : IVec S1700000 32) (i : Fin 100000) (j : Fin 64) :
    aggregate64 z0 b d s t (ix2 i j)
      = (0 + ∑ e ∈ Finset.univ.filter (fun e : Fin 1700000 => (t (ix1 e)).toInt = (i.val : Int)),
            z0 (ix2 (Cert.Gcn.row (Cert.Gcn.nrm (s (ix1 e)))) j)
              * (d (ix1 (Cert.Gcn.row (Cert.Gcn.nrm (s (ix1 e))))) * d (ix1 (Cert.Gcn.row (Cert.Gcn.nrm (t (ix1 e)))))))
          + b (ix1 j) := by
  unfold aggregate64
  rw [addf_apply, Cert.HostBroadcast.row_apply, scatter64_apply, Cert.HostBroadcast.scalar_apply, constant_apply,
    Ideal.ofBits_zero_f32]
  refine congrArg (fun z => (0 + z) + b (ix1 j)) ?_
  refine Finset.sum_congr rfl fun e _ => ?_
  rw [mulf_apply, gather64_apply, Cert.HostBroadcast.col_spread_apply, Cert.HostBroadcast.col_one_apply, mulf_apply,
    gatherVec_apply, gatherVec_apply]

end Cert.ReferenceIdeal.RefStages

end
-- ==== Proof.RefNormLinear.lean ====
/-
  The reference's second-layer linear map is the matrix product of the normalised, rectified first-layer output with
  the second weight matrix.

  Write `H` for the first layer's output, a `[100000, 128]` array.  The reference computes on whole arrays: the
  column means `mean k = (Σ_p H (p, k)) / 100000`, the reciprocal standard deviations
  `invstd k = rsqrt ((Σ_p (H (p, k) − mean k)²) / 100000 + ε)`, then, entry by entry,
  `A (p, k) = max (((H (p, k) − mean k) · invstd k) · gamma k + beta k) 0`, and last the product `A · W₂`.
  The two statistics are the kernel's host stages `mean` and `invstd` applied to `H`, operation for operation, so
  those two equalities hold by unfolding.  Every `[128]` vector reaches the entries as a `[1, 128]` row repeated
  down the rows, so at `(p, k)` it contributes its entry `k`; that is the entry `(0, k)` of the vector reshaped to a
  one-row array.  The product's entry `(p, q)` is the sum over `k` of `A (p, k) · W₂ (k, q)`.
-/
import proofs.«115060_j18459769439026_2_alg».proof.Proof.Gen.ReferenceIdeal.Read
import proofs.«115060_j18459769439026_2_alg».proof.Proof.KernelStages
import proofs.«115060_j18459769439026_2_alg».proof.Proof.Spec

noncomputable section

open scoped BigOperators

namespace Cert.Bridge

open Idealize.ShloMosaic Idealize.ShloMosaic.ValueIdx Cert.ReferenceIdeal
open Cert.KernelIdeal (Stages.mean Stages.invstd Stages.asRow Stages.rows128)

/-- A vector of 128 entries reshaped to one row: its entry `(0, k)` is the vector's entry `k` (both sit at row-major
    position `k`). -/
theorem asRow_apply (v : FVec Ideal S128 .f32) (k : Fin 128) :
    Stages.asRow v (ix2 (0 : Fin 1) k) = v (ix1 k) := by
  unfold Cert.KernelIdeal.Stages.asRow
  exact shapeCast_apply v _ (ix2 (0 : Fin 1) k) (ix1 k)
    (by rw [Shape.rowMajor_val_two, Shape.rowMajor_val_one]; show k.val = 0 * 128 + k.val; omega)

section

variable (x0 : FVec Ideal S100000x256 .f32) (x1 : IVec S2x1600000 32) (x2 : FVec Ideal S256x128 .f32)
  (x3 x4 x5 : FVec Ideal S128 .f32) (x6 : FVec Ideal S128x64 .f32)

/-- The reference's column means of the first layer's output are the stage `mean` of it: the column sums from zero
    divided by the number of rows. -/
theorem mean_eq :
    Read.val_main_v48 (F := Ideal) x0 x1 x2 x3 = Stages.mean (Read.val_main_v45 (F := Ideal) x0 x1 x2 x3) := rfl

/-- The reference's reciprocal standard deviations are the stage `invstd` of the first layer's output: the column
    sums of the squared deviations from the means, divided by the number of rows, plus `ε`, under `rsqrt`. -/
theorem invstd_eq :
    Read.val_main_v61 (F := Ideal) x0 x1 x2 x3 = Stages.invstd (Read.val_main_v45 (F := Ideal) x0 x1 x2 x3) := rfl

/-- The normalised and rectified array at `(p, k)`: each of the four `[128]` vectors (means, reciprocal standard
    deviations, scale, shift) enters through a one-row array repeated down the rows, hence with its entry `k`; the
    rectifier is the maximum with a zero array. -/
theorem relu_entry (p : Fin 100000) (k : Fin 128) :
    Read.val_main_v71 (F := Ideal) x0 x1 x2 x3 x4 x5 (ix2 p k)
      = Cert.Gcn.normRelu (Read.val_main_v45 (F := Ideal) x0 x1 x2 x3)
          (Stages.asRow (Stages.mean (Read.val_main_v45 (F := Ideal) x0 x1 x2 x3)))
          (Stages.asRow (Stages.invstd (Read.val_main_v45 (F := Ideal) x0 x1 x2 x3)))
          (Stages.asRow x4) (Stages.asRow x5) (ix2 p k) := by
  rw [Cert.Gcn.normRelu_apply, asRow_apply, asRow_apply, asRow_apply, asRow_apply, ← mean_eq, ← invstd_eq]
  -- the reference's side, one operation at a time, down to the operands at an index
  rw [Read.val_main_v71_apply, Read.val_main_v70_apply, Read.val_main_v67_apply, Read.val_main_v64_apply,
    Read.val_main_v58_apply, Read.val_main_v57_apply, Read.val_main_v56_apply, Read.val_main_v63_apply,
    Read.val_main_v62_apply, Read.val_main_v66_apply, Read.val_main_v65_apply, Read.val_main_v69_apply,
    Read.val_main_v68_apply, Read.val_main_call0_v0_apply, Read.val_main_call0_cst_apply]
  -- a row repeated down the rows, read at `(p, k)`, is read at `k`
  have e1 : Read.idx_main_v56 (Read.idx_main_v57 (ix2 p k)) = ix1 k :=
    funext fun a => by match a with | ⟨0, _⟩ => rfl
  have e2 : Read.idx_main_v62 (Read.idx_main_v63 (ix2 p k)) = ix1 k :=
    funext fun a => by match a with | ⟨0, _⟩ => rfl
  have e3 : Read.idx_main_v65 (Read.idx_main_v66 (ix2 p k)) = ix1 k :=
    funext fun a => by match a with | ⟨0, _⟩ => rfl
  have e4 : Read.idx_main_v68 (Read.idx_main_v69 (ix2 p k)) = ix1 k :=
    funext fun a => by match a with | ⟨0, _⟩ => rfl
  rw [e1, e2, e3, e4]
  show max _ (Ideal.ofBits .f32 0x00000000#32) = max _ 0
  rw [Ideal.ofBits_zero_f32]
  rfl

/-- The second layer's linear map: entry `(p, q)` is the sum over `k` of the normalised, rectified entry `(p, k)`
    times `W₂ (k, q)`. -/
theorem normLinear_eq :
    Read.val_main_v72 (F := Ideal) x0 x1 x2 x3 x4 x5 x6
      = Cert.Gcn.linear
          (Cert.Gcn.normRelu (Read.val_main_v45 (F := Ideal) x0 x1 x2 x3)
            (Stages.asRow (Stages.mean (Read.val_main_v45 (F := Ideal) x0 x1 x2 x3)))
            (Stages.asRow (Stages.invstd (Read.val_main_v45 (F := Ideal) x0 x1 x2 x3)))
            (Stages.asRow x4) (Stages.asRow x5)) x6 := by
  funext i
  obtain ⟨p, q, rfl⟩ : ∃ p q, i = ix2 p q := ⟨i 0, i 1, eq_ix2 i⟩
  rw [Read.val_main_v72_apply, Cert.Gcn.linear_apply]
  refine Finset.sum_congr rfl fun k _ => ?_
  -- the product's left operand is read at `(p, k)`, its right operand at `(k, q)`
  have el : Read.lidx_main_v72 (ix2 p q) k = ix2 p k :=
    funext fun a => by match a with | ⟨0, _⟩ => rfl | ⟨1, _⟩ => rfl
  have er : Read.ridx_main_v72 (ix2 p q) k = ix2 k q :=
    funext fun a => by match a with | ⟨0, _⟩ => rfl | ⟨1, _⟩ => rfl
  rw [el, er, relu_entry]

end

end Cert.Bridge

end
-- ==== Proof.RefScores.lean ====
/-
  The reference's edge scores are the kernel's host stage `scores` applied to the reference's second-layer output.

  Both programs read the sources and the targets off the edge list the same way (row 0 and row 1, as vectors), shift a
  negative word up by the number of nodes, gather the rows of the second layer's output `Z` at the sources and at the
  targets, multiply the two gathered arrays entry by entry and add the 64 columns of each row from zero.  The
  reference's operations are the stage's operations in the same order, so each equality holds by unfolding.
-/
import proofs.«115060_j18459769439026_2_alg».proof.Proof.Gen.ReferenceIdeal.Read
import proofs.«115060_j18459769439026_2_alg».proof.Proof.KernelStages
import proofs.«115060_j18459769439026_2_alg».proof.Proof.Spec

noncomputable section

namespace Cert.Bridge

open Idealize.ShloMosaic Cert.ReferenceIdeal
open Cert.KernelIdeal (Stages.src Stages.dst Stages.norm Stages.scores)

/-- The reference's sources are row 0 of the edge list, as the kernel's are. -/
theorem src_eq (x1 : IVec S2x1600000 32) : Read.val_main_v1 (F := Ideal) x1 = Stages.src x1 := rfl

/-- The reference's targets are row 1 of the edge list, as the kernel's are. -/
theorem dst_eq (x1 : IVec S2x1600000 32) : Read.val_main_v3 (F := Ideal) x1 = Stages.dst x1 := rfl

/-- The word the reference looks a source up by is the stage's normalised word. -/
theorem normSrc_eq (x1 : IVec S2x1600000 32) :
    Read.val_main_v118 (F := Ideal) x1 = Stages.norm (Stages.src x1) := rfl

/-- The word the reference looks a target up by is the stage's normalised word. -/
theorem normDst_eq (x1 : IVec S2x1600000 32) :
    Read.val_main_v125 (F := Ideal) x1 = Stages.norm (Stages.dst x1) := rfl

/-- The reference's edge scores: the rows of `Z` at the normalised sources times the rows at the normalised targets,
    the 64 columns of each row added from zero. -/
theorem scores_eq (x0 : FVec Ideal S100000x256 .f32) (x1 : IVec S2x1600000 32) (x2 : FVec Ideal S256x128 .f32)
    (x3 x4 x5 : FVec Ideal S128 .f32) (x6 : FVec Ideal S128x64 .f32) (x7 : FVec Ideal S64 .f32) :
    Read.val_main_v129 (F := Ideal) x0 x1 x2 x3 x4 x5 x6 x7
      = Stages.scores (Read.val_main_v113 (F := Ideal) x0 x1 x2 x3 x4 x5 x6 x7) (Stages.src x1) (Stages.dst x1) := rfl

end Cert.Bridge

end
-- ==== Proof.AggregateLaw.lean ====
/-
  The law that joins the two arrangements of the normalised aggregation, over the extended reals.

  One program scales the features by `dis` at the source, adds them up over the edges into each target, scales the sum
  by `dis` at the target, and adds the node's own term `dis i² · g i` outside the sum.  The other carries the loop
  `i → i` as one more edge and multiplies every gathered feature by the weight `dis (source) · dis (target)`.  The two
  agree because `dis i` is a non-negative number that is not `+∞`: such a factor distributes over a finite sum of
  extended reals whatever the summands are, so no finiteness of the features is needed.

  Also here: why `dis i = rsqrt (max (deg i) 1)` is such a factor; a sum over the first `A + B` naturals cut into
  its first `A` and its last `B` terms; and a marked sum with one marked position.
-/
import Idealize.ShloMosaic.PureOps.Ideal

noncomputable section

open scoped BigOperators

namespace Cert.AggregateLaw

open Idealize.ShloMosaic

/-- A non-negative factor other than `+∞` distributes over a finite sum of extended reals. -/
theorem mul_sum_of_nonneg {ι : Type} (s : Finset ι) (f : ι → EReal) {c : EReal} (h0 : 0 ≤ c) (ht : c ≠ ⊤) :
    c * ∑ e ∈ s, f e = ∑ e ∈ s, c * f e := by
  classical
  refine Finset.induction_on s (by simp) ?_
  intro a s ha ih
  rw [Finset.sum_insert ha, Finset.sum_insert ha, EReal.left_distrib_of_nonneg_of_ne_top h0 ht, ih]

/-- The reciprocal square root of anything cut off below at one is a non-negative number that is not `+∞`. -/
theorem rsqrt_max_one (x : EReal) : 0 ≤ Ideal.rsqrt (max x 1) ∧ Ideal.rsqrt (max x 1) ≠ ⊤ := by
  have h1 : (1 : EReal) ≤ max x 1 := le_max_right _ _
  generalize max x 1 = d at h1 ⊢
  induction d using EReal.rec with
  | bot => exact absurd (le_bot_iff.mp h1) (by exact_mod_cast EReal.coe_ne_bot (1 : ℝ))
  | top => exact ⟨by simp, by simp⟩
  | coe r =>
    have hr : (1 : ℝ) ≤ r := by exact_mod_cast h1
    rw [Ideal.rsqrt_coe, if_neg (by linarith), if_neg (by linarith)]
    exact ⟨by exact_mod_cast inv_nonneg.mpr (Real.sqrt_nonneg r), EReal.coe_ne_top _⟩

/-- THE LAW at one target `i` and one column: `g` the column of features, `σ e` the row edge `e` reads, `T` the edges
    whose target is `i`, `b` the bias. -/
theorem aggregate_eq {E N : Type} (T : Finset E) (g d : N → EReal) (σ : E → N) (i : N) (b : EReal)
    (h0 : 0 ≤ d i) (ht : d i ≠ ⊤) :
    (d i * (0 + ∑ e ∈ T, g (σ e) * d (σ e)) + (d i * d i) * g i) + b
      = (0 + (∑ e ∈ T, g (σ e) * (d (σ e) * d i) + g i * (d i * d i))) + b := by
  rw [zero_add, zero_add, mul_sum_of_nonneg T _ h0 ht, mul_comm (d i * d i) (g i)]
  refine congrArg (fun s => s + g i * (d i * d i) + b) ?_
  refine Finset.sum_congr rfl fun e _ => ?_
  rw [mul_comm (d i), mul_assoc]

/-- A sum over the first `A + B` naturals is the sum of its first `A` terms plus the sum of its last `B`. -/
theorem sum_join {M : Type} [AddCommMonoid M] {A B C : ℕ} (hC : C = A + B) (F : Fin C → M) :
    ∑ e : Fin C, F e
      = ∑ a : Fin A, F ⟨a.val, by omega⟩ + ∑ l : Fin B, F ⟨A + l.val, by omega⟩ := by
  subst hC
  rw [Fin.sum_univ_add]
  rfl

/-- A marked sum whose only marked position is `i` is the term at `i`. -/
theorem sum_single_mark {M : Type} [AddCommMonoid M] {B : ℕ} (i : Fin B) (P : Fin B → Prop) [DecidablePred P]
    (hP : ∀ l, P l ↔ l = i) (F : Fin B → M) : (∑ l : Fin B, if P l then F l else 0) = F i := by
  rw [Finset.sum_eq_single i]
  · rw [if_pos ((hP i).mpr rfl)]
  · intro l _ hl
    rw [if_neg (fun h => hl ((hP l).mp h))]
  · intro h; exact absurd (Finset.mem_univ i) h

end Cert.AggregateLaw

end
-- ==== Proof.DegreeBridge.lean ====
/-
  The two programs compute the same normalisation vector `dis`.

  The kernel counts, for every node `i`, the edges whose target is `i` — a one added onto zero for each of the
  1600000 edges at the node its target names — and then adds one for the node's own loop:
  `deg i = (0 + Σ_{e : dst e = i} 1) + 1`.  The reference joins the targets with the list of all node numbers
  `0, 1, …, 99999` (one loop per node) and counts over the 1700000 joined positions:
  `deg i = 0 + Σ_{e : joined e = i} 1`.  Cut the joined sum into its first 1600000 positions, where the joined word is
  the target of edge `e`, and its last 100000, where the joined word is the node number `l` itself and so names `i`
  exactly when `l = i`: the second part is one term.  Hence the reference's count is
  `0 + (Σ_{e : dst e = i} 1 + 1)`, the kernel's with the additions associated the other way; over the extended reals
  addition is associative.  Both programs then cut the count off below at one and take the reciprocal square root.
-/
import proofs.«115060_j18459769439026_2_alg».proof.Proof.Gen.ReferenceIdeal.Read
import proofs.«115060_j18459769439026_2_alg».proof.Proof.KernelStages
import proofs.«115060_j18459769439026_2_alg».proof.Proof.LibVectorGatherScatter
import proofs.«115060_j18459769439026_2_alg».proof.Proof.LibJoinIota
import proofs.«115060_j18459769439026_2_alg».proof.Proof.LibHostBroadcast
import proofs.«115060_j18459769439026_2_alg».proof.Proof.AggregateLaw

noncomputable section

open scoped BigOperators

namespace Cert.Bridge

open Idealize.ShloMosaic Idealize.ShloMosaic.ValueIdx

/-! ## The reference's count -/

section Reference

open Cert.ReferenceIdeal Cert.ReferenceIdeal.Facts₀

/-- Entries added onto a vector over the nodes at the positions a column of 1700000 words names, at `n`. -/
theorem ref_scatter_apply (x : FVec Ideal S100000 .f32) (idx : IVec S1700000x1 32) (u : FVec Ideal S1700000 .f32)
    (n : Fin 100000) :
    Host.scatterAdd scatter_S100000_S1700000x1_S1700000_n_0_0_1 x idx u (ix1 n)
      = x (ix1 n) + ∑ e ∈ Cert.VectorGatherScatter.hits idx n, u (ix1 e) :=
  Cert.VectorGatherScatter.scatterAdd_vec_apply _ x idx u n

/-- The joined targets in their first 1600000 positions: the target of edge `a`. -/
theorem joined_left (x1 : IVec S2x1600000 32) (a : Fin 1600000) :
    Read.val_main_v7 (F := Ideal) x1 (ix1 (⟨a.val, by omega⟩ : Fin 1700000)) = Read.val_main_v3 (F := Ideal) x1 (ix1 a) :=
  Cert.JoinIota.join_left_apply (Read.val_main_v3 (F := Ideal) x1) (Read.val_main_v5 (F := Ideal))
    concatenates_S1600000_S100000_S1700000_d0 (⟨a.val, by omega⟩ : Fin 1700000) a.isLt

/-- The joined targets in their last 100000 positions: the word of the node number `l`. -/
theorem joined_right (x1 : IVec S2x1600000 32) (l : Fin 100000) :
    Read.val_main_v7 (F := Ideal) x1 (ix1 (⟨1600000 + l.val, by omega⟩ : Fin 1700000)) = BitVec.ofNat 32 l.val := by
  refine (Cert.JoinIota.join_right_apply (Read.val_main_v3 (F := Ideal) x1) (Read.val_main_v5 (F := Ideal))
    concatenates_S1600000_S100000_S1700000_d0 (⟨1600000 + l.val, by omega⟩ : Fin 1700000) (Nat.le_add_right _ _)).trans ?_
  show BitVec.ofNat 32 (1600000 + l.val - 1600000) = BitVec.ofNat 32 l.val
  rw [Nat.add_sub_cancel_left]

/-- THE REFERENCE'S COUNT AT NODE `i`: zero plus (one for every edge whose target is `i`, plus one for the loop). -/
theorem ref_deg_apply (x1 : IVec S2x1600000 32) (i : Fin 100000) :
    Read.val_main_v11 (F := Ideal) x1 (ix1 i)
      = 0 + ((∑ a : Fin 1600000, if (Read.val_main_v3 (F := Ideal) x1 (ix1 a)).toInt = (i.val : Int)
                then Ideal.ofBits .f32 0x3F800000#32 else 0)
              + Ideal.ofBits .f32 0x3F800000#32) := by
  -- the table of zeros, the vector of ones, and the column of joined targets, each at an index
  have h9 : Read.val_main_v9 (F := Ideal) (ix1 i) = 0 := by
    unfold Read.val_main_v9 Read.val_main_cst_0
    rw [Cert.HostBroadcast.scalar_apply, constant_apply, Ideal.ofBits_zero_f32]
  have h8 : ∀ e : Fin 1700000, Read.val_main_v8 (F := Ideal) (ix1 e) = Ideal.ofBits .f32 0x3F800000#32 := fun e => by
    unfold Read.val_main_v8 Read.val_main_cst
    rw [Cert.HostBroadcast.scalar_apply, constant_apply]
  have h10 : ∀ e : Fin 1700000, Read.val_main_v10 (F := Ideal) x1 (ix2 e 0) = Read.val_main_v7 (F := Ideal) x1 (ix1 e) :=
    fun e => by
      unfold Read.val_main_v10
      rw [Cert.HostBroadcast.col_one_apply]
  unfold Read.val_main_v11
  rw [ref_scatter_apply, h9]
  refine congrArg (fun S => 0 + S) ?_
  unfold Cert.VectorGatherScatter.hits
  rw [Finset.sum_filter, Cert.AggregateLaw.sum_join (A := 1600000) (B := 100000) (by norm_num)]
  refine congrArg₂ (· + ·) (Finset.sum_congr rfl fun a _ => ?_) ?_
  · -- a position among the first 1600000: the joined word is the target of edge `a`
    rw [h8, h10, joined_left]
  · -- a position among the last 100000: the joined word names node `l`, which is `i` exactly when `l = i`
    refine (Cert.AggregateLaw.sum_single_mark i _ (fun l => ?_) _).trans (h8 _)
    rw [h10, joined_right, Cert.JoinIota.iota_toInt (by norm_num) l]
    exact ⟨fun h => Fin.ext (by omega), fun h => by rw [h]⟩

end Reference

/-! ## The kernel's count -/

section Kernel

open Cert.KernelIdeal Cert.KernelIdeal.Facts₀

/-- Entries added onto a vector over the nodes at the positions a column of 1600000 words names, at `n`. -/
theorem ker_scatter_apply (x : FVec Ideal S100000 .f32) (idx : IVec S1600000x1 32) (u : FVec Ideal S1600000 .f32)
    (n : Fin 100000) :
    Host.scatterAdd scatter_S100000_S1600000x1_S1600000_n_0_0_1 x idx u (ix1 n)
      = x (ix1 n) + ∑ e ∈ Cert.VectorGatherScatter.hits idx n, u (ix1 e) :=
  Cert.VectorGatherScatter.scatterAdd_vec_apply _ x idx u n

/-- THE KERNEL'S COUNT AT NODE `i`: (zero plus one for every edge whose target is `i`) plus one for the loop. -/
theorem ker_deg_apply (x1 : IVec S2x1600000 32) (i : Fin 100000) :
    Stages.deg x1 (ix1 i)
      = (0 + ∑ a : Fin 1600000, if (Stages.dst x1 (ix1 a)).toInt = (i.val : Int)
                then Ideal.ofBits .f32 0x3F800000#32 else 0)
          + Ideal.ofBits .f32 0x3F800000#32 := by
  -- the column of targets at edge `e`
  have hcol : ∀ e : Fin 1600000,
      (broadcastInDim S1600000x1 ![0] bcast_S1600000_S1600000x1_0 (Stages.dst x1)) (ix2 e 0) = Stages.dst x1 (ix1 e) :=
    fun e => Cert.HostBroadcast.col_one_apply _ _ e
  unfold Stages.deg
  rw [addf_apply, ker_scatter_apply]
  unfold Cert.VectorGatherScatter.hits
  rw [Finset.sum_filter]
  simp only [Cert.HostBroadcast.scalar_apply, hcol, constant_apply, Ideal.ofBits_zero_f32]

end Kernel

/-! ## The two agree -/

/-- The reference's count is the kernel's. -/
theorem deg_eq (x1 : IVec Cert.ReferenceIdeal.S2x1600000 32) :
    Cert.ReferenceIdeal.Read.val_main_v11 (F := Ideal) x1 = Cert.KernelIdeal.Stages.deg x1 := by
  funext j
  obtain ⟨i, rfl⟩ : ∃ i, j = ix1 i := ⟨j 0, eq_ix1 j⟩
  rw [ref_deg_apply]
  refine Eq.trans ?_ (ker_deg_apply x1 i).symm
  exact (add_assoc _ _ _).symm

/-- The reference's normalisation vector is the kernel's: the count cut off below at one, under the reciprocal square
    root. -/
theorem dis_eq (x1 : IVec Cert.ReferenceIdeal.S2x1600000 32) :
    Cert.ReferenceIdeal.Read.val_main_v14 (F := Ideal) x1 = Cert.KernelIdeal.Stages.dis x1 := by
  unfold Cert.ReferenceIdeal.Read.val_main_v14 Cert.ReferenceIdeal.Read.val_main_v13 Cert.KernelIdeal.Stages.dis
  rw [deg_eq]
  rfl

end Cert.Bridge

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibMeanAggregate.lean ====
/-
  Mean aggregation commutes with a linear map — the one law that joins the two programs.

  Fix a node. Let `H` be the edges arriving at it, `f e k` the feature `k` of edge `e`'s source row, `w e` the
  edge's weight, `wn k` one column of the neighbour weight matrix, and `d = max D 1` the node's clipped in-degree.
  One program first sums the weighted source rows, scales the sum by `1 / d` and then applies the matrix:

      ∑ k, ((0 + ∑ e ∈ H, f e k · w e) · (1 / d)) · wn k

  the other applies the matrix to every source row first, weights, sums and divides:

      (0 + ∑ e ∈ H, (∑ k, f e k · wn k) · w e) / d.

  Over the reals these agree by exchanging the two finite sums and distributing the products. Over the extended
  reals the same holds as soon as the `f`, `w`, `wn` are real: the divisor `d ≥ 1` is never zero, so dividing by it
  is multiplying by `d⁻¹`, and `d⁻¹` is a real number in `[0, 1]` whatever `D` is (`⊤⁻¹ = 0`); nothing infinite
  enters the sums.
-/
import Idealize.ShloMosaic.PureOps.Ideal

noncomputable section

open scoped BigOperators

namespace Cert.MeanAggregate

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW OVER THE REALS: scaling the aggregated rows by `c` and then contracting with `wn` is contracting every
    row with `wn` first, then weighting, summing and scaling. -/
theorem aggregate_real {E K : Type} [Fintype K] (H : Finset E) (f : E → K → ℝ) (w : E → ℝ) (wn : K → ℝ) (c : ℝ) :
    ∑ k, ((∑ e ∈ H, f e k * w e) * c) * wn k = (∑ e ∈ H, (∑ k, f e k * wn k) * w e) * c := by
  calc ∑ k, ((∑ e ∈ H, f e k * w e) * c) * wn k
      = ∑ k, ∑ e ∈ H, f e k * w e * c * wn k := by
        refine Finset.sum_congr rfl fun k _ => ?_
        rw [Finset.sum_mul, Finset.sum_mul]
    _ = ∑ e ∈ H, ∑ k, f e k * w e * c * wn k := Finset.sum_comm
    _ = ∑ e ∈ H, (∑ k, f e k * wn k) * w e * c := by
        refine Finset.sum_congr rfl fun e _ => ?_
        rw [Finset.sum_mul, Finset.sum_mul]
        exact Finset.sum_congr rfl fun k _ => by ring
    _ = (∑ e ∈ H, (∑ k, f e k * wn k) * w e) * c := by rw [Finset.sum_mul]

/-- The unit word of single precision denotes the number one. -/
theorem ofBits_one : Ideal.ofBits .f32 0x3F800000#32 = 1 := by
  simp [Ideal.ofBits, Ideal.ieee, -EReal.coe_mul]; norm_num

/-- A degree clipped below at one is never zero, and its inverse is a real number. -/
theorem inv_max_one (D : EReal) : max D 1 ≠ 0 ∧ ∃ c : ℝ, (max D 1)⁻¹ = (c : EReal) := by
  have h1 : (1 : EReal) ≤ max D 1 := le_max_right _ _
  generalize max D 1 = d at h1 ⊢
  refine ⟨fun h0 => ?_, ?_⟩
  · rw [h0] at h1
    exact absurd h1 (by norm_num)
  · induction d using EReal.rec with
    | bot => exact absurd (le_bot_iff.mp h1) (by exact_mod_cast EReal.coe_ne_bot (1 : ℝ))
    | coe r => exact ⟨r⁻¹, (EReal.coe_inv r).symm⟩
    | top => exact ⟨0, by simp⟩

/-- THE LAW OVER THE EXTENDED REALS, in the two programs' own spelling: real features, weights and matrix entries, any
    extended-real degree `D`. -/
theorem aggregate_ereal {E K : Type} [Fintype K] (H : Finset E) (f : E → K → ℝ) (w : E → ℝ) (wn : K → ℝ) (D : EReal) :
    ∑ k, (((0 : EReal) + ∑ e ∈ H, (f e k : EReal) * (w e : EReal)) * Ideal.div 1 (max D 1)) * (wn k : EReal)
      = Ideal.div (0 + ∑ e ∈ H, (∑ k, (f e k : EReal) * (wn k : EReal)) * (w e : EReal)) (max D 1) := by
  obtain ⟨h0, c, hc⟩ := inv_max_one D
  unfold Ideal.div
  rw [if_neg h0, if_neg h0, hc, one_mul, zero_add]
  have hl : ∀ k, (((0 : EReal) + ∑ e ∈ H, (f e k : EReal) * (w e : EReal)) * (c : EReal)) * (wn k : EReal)
      = (((∑ e ∈ H, f e k * w e) * c * wn k : ℝ) : EReal) := fun k => by
    rw [zero_add, EReal.coe_mul, EReal.coe_mul, coe_sum]
    simp only [EReal.coe_mul]
  have hr : ∀ e, (∑ k, (f e k : EReal) * (wn k : EReal)) * (w e : EReal) = (((∑ k, f e k * wn k) * w e : ℝ) : EReal) := fun e => by
    rw [EReal.coe_mul, coe_sum]
    simp only [EReal.coe_mul]
  simp only [hl, hr]
  rw [← coe_sum, ← coe_sum, ← EReal.coe_mul]
  exact congrArg _ (aggregate_real H f w wn c)

end Cert.MeanAggregate

end
-- ==== Proof.Bridge.lean ====
/-
  The kernel program's result and the reference program's result are one function of the arguments.

  Stage by stage: both programs compute the same degree normalisation `dis`; the first layer's product `x · W1` is the
  same; the normalised aggregation agrees (`layer128`, `layer64`: the kernel program scales by `dis` at the source, sums
  over the edges into each target, scales by `dis` at the target and adds the loop term `dis i² · h0 i` outside the sum;
  the reference carries the loop `i → i` as edge number `1600000 + i` and weights every gathered row by
  `dis (source) · dis (target)`; they agree because `dis i` is a non-negative number other than `+∞`, which distributes
  over any finite sum of extended reals); the batch normalisation, rectifier and second product are the same
  operations; and the edge scores are the same operations of the second layer's output.
-/
import proofs.«115060_j18459769439026_2_alg».proof.Proof.KernelValue
import proofs.«115060_j18459769439026_2_alg».proof.Proof.KernelAggregate128
import proofs.«115060_j18459769439026_2_alg».proof.Proof.KernelAggregate64
import proofs.«115060_j18459769439026_2_alg».proof.Proof.RefAggregate128
import proofs.«115060_j18459769439026_2_alg».proof.Proof.RefAggregate64
import proofs.«115060_j18459769439026_2_alg».proof.Proof.RefNormLinear
import proofs.«115060_j18459769439026_2_alg».proof.Proof.RefScores
import proofs.«115060_j18459769439026_2_alg».proof.Proof.DegreeBridge
import proofs.«115060_j18459769439026_2_alg».proof.Proof.AggregateLaw
import proofs.«115060_j18459769439026_2_alg».proof.Proof.LibHostBroadcast
import proofs.«115060_j18459769439026_2_alg».proof.Proof.LibHostProduct
import proofs.«115060_j18459769439026_2_alg».proof.Proof.LibJoinIota
import proofs.«115060_j18459769439026_2_alg».proof.Proof.LibMeanAggregate

noncomputable section

open scoped BigOperators

namespace Cert.Bridge

open Idealize.ShloMosaic Idealize.ShloMosaic.ValueIdx
open Cert.ReferenceIdeal
open Cert.KernelIdeal (Stages.dis Stages.deg Stages.src Stages.dst Stages.aggregate128 Stages.aggregate64 Stages.scores
  Stages.mean Stages.invstd Stages.asRow)

/-- The host's reciprocal square root reads entry by entry. -/
theorem hostRsqrt_apply {s : Shape} {φ : FTy} (v : FVec Ideal s φ) (j : s.Idx) : Host.rsqrt v j = Ideal.rsqrt (v j) := rfl

/-- `dis i = rsqrt (max (deg i) 1)` is a non-negative number other than `+∞`, whatever the degree. -/
theorem dis_factor (x1 : IVec S2x1600000 32) (i : Fin 100000) :
    0 ≤ Stages.dis x1 (ix1 i) ∧ Stages.dis x1 (ix1 i) ≠ ⊤ := by
  unfold Stages.dis
  rw [hostRsqrt_apply, maximumf_apply, Cert.HostBroadcast.scalar_apply, constant_apply, Cert.MeanAggregate.ofBits_one]
  exact Cert.AggregateLaw.rsqrt_max_one _

/-- The reference's first product is `x · W1`, entry by entry the sum over the shared coordinate. -/
theorem linear_eq (x0 : FVec Ideal S100000x256 .f32) (x2 : FVec Ideal S256x128 .f32) :
    Read.val_main_v4 (F := Ideal) x0 x2 = Cert.Gcn.linear x0 x2 := by
  funext ij
  obtain ⟨i, j, rfl⟩ : ∃ (i : Fin 100000) (j : Fin 128), ij = ix2 i j := ⟨ij 0, ij 1, eq_ix2 ij⟩
  unfold Read.val_main_v4
  exact Cert.HostProduct.dotGeneral_nn_apply _ none x0 x2 i j

/-- A word that, read signed, is the node number `k` names row `k`. -/
theorem row_nrm_of_hit (w : BitVec 32) (k : Fin 100000) (h : w.toInt = (k.val : Int)) :
    Cert.Gcn.row (Cert.Gcn.nrm w) = k := by
  have hn : Cert.Gcn.nrm w = w := Cert.JoinIota.norm_of_hit w k.val k.isLt h
  refine Fin.ext ?_
  show min (Cert.Gcn.nrm w).toInt.toNat (100000 - 1) = k.val
  rw [hn]
  exact Cert.JoinIota.clamp_of_hit w k.val k.isLt h

/-- The word of the loop at node `l`, read signed, is `l`. -/
theorem loop_toInt (l : Fin 100000) : (BitVec.ofNat 32 (1600000 + l.val - 1600000)).toInt = (l.val : Int) := by
  rw [Nat.add_sub_cancel_left]
  exact Cert.JoinIota.iota_toInt (by norm_num) l

/-- THE AGGREGATION OF A 128-COLUMN ARRAY, the two arrangements: at target `i` and column `j` the reference's sum over
    the 1700000 joined edges is its first 1600000 terms — edge `e`, whose target word names `i`, so that its weight is
    `dis (source) · dis i` — plus the one loop `1600000 + i`, whose term is `h0 i · (dis i · dis i)`. -/
theorem layer128 (h0 : FVec Ideal S100000x128 .f32) (b : FVec Ideal S128 .f32) (x1 : IVec S2x1600000 32) :
    Stages.aggregate128 h0 b (Stages.dis x1) (Stages.src x1) (Stages.dst x1)
      = RefStages.aggregate128 h0 b (Stages.dis x1) (Read.val_main_v6 (F := Ideal) x1) (Read.val_main_v7 (F := Ideal) x1) := by
  funext ij
  obtain ⟨i, j, rfl⟩ : ∃ (i : Fin 100000) (j : Fin 128), ij = ix2 i j := ⟨ij 0, ij 1, eq_ix2 ij⟩
  rw [Cert.KernelIdeal.Stages.aggregate128_apply, RefStages.aggregate128_apply]
  have hd := dis_factor x1 i
  refine (Cert.AggregateLaw.aggregate_eq
    (Finset.univ.filter fun e : Fin 1600000 => (Stages.dst x1 (ix1 e)).toInt = (i.val : Int))
    (fun n => h0 (ix2 n j)) (fun n => Stages.dis x1 (ix1 n))
    (fun e => Cert.Gcn.row (Cert.Gcn.nrm (Stages.src x1 (ix1 e)))) i (b (ix1 j)) hd.1 hd.2).trans ?_
  refine congrArg (fun s => 0 + s + b (ix1 j)) ?_
  beta_reduce
  symm
  rw [Finset.sum_filter (s := (Finset.univ : Finset (Fin 1700000))),
    Cert.AggregateLaw.sum_join (A := 1600000) (B := 100000) (by norm_num),
    Finset.sum_filter (s := (Finset.univ : Finset (Fin 1600000)))]
  refine congrArg₂ (· + ·) (Finset.sum_congr rfl fun e _ => ?_) ?_
  · -- an edge proper: position `e` of the joined lists holds the edge's own source and target
    have h6 : Read.val_main_v6 (F := Ideal) x1 (ix1 (⟨e.val, by omega⟩ : Fin 1700000)) = Stages.src x1 (ix1 e) :=
      RefStages.v6_left x1 ⟨e.val, by omega⟩ e.isLt
    have h7 : Read.val_main_v7 (F := Ideal) x1 (ix1 (⟨e.val, by omega⟩ : Fin 1700000)) = Stages.dst x1 (ix1 e) :=
      RefStages.v7_left x1 ⟨e.val, by omega⟩ e.isLt
    rw [h6, h7]
    by_cases h : (Stages.dst x1 (ix1 e)).toInt = (i.val : Int)
    · rw [if_pos h, if_pos h, row_nrm_of_hit _ i h]
    · rw [if_neg h, if_neg h]
  · -- the loops: position `1600000 + l` holds the word `l` twice, and names target `i` exactly when `l = i`
    have h6 : ∀ l : Fin 100000, Read.val_main_v6 (F := Ideal) x1 (ix1 (⟨1600000 + l.val, by omega⟩ : Fin 1700000))
        = BitVec.ofNat 32 (1600000 + l.val - 1600000) :=
      fun l => RefStages.v6_right x1 ⟨1600000 + l.val, by omega⟩ (Nat.le_add_right _ _)
    have h7 : ∀ l : Fin 100000, Read.val_main_v7 (F := Ideal) x1 (ix1 (⟨1600000 + l.val, by omega⟩ : Fin 1700000))
        = BitVec.ofNat 32 (1600000 + l.val - 1600000) :=
      fun l => RefStages.v7_right x1 ⟨1600000 + l.val, by omega⟩ (Nat.le_add_right _ _)
    refine (Cert.AggregateLaw.sum_single_mark i _ (fun l => ?_) _).trans ?_
    · rw [h7 l, loop_toInt l]
      constructor
      · intro h; exact Fin.ext (by exact_mod_cast h)
      · intro h; rw [h]
    · rw [h6 i, h7 i, row_nrm_of_hit _ i (loop_toInt i)]

/-- THE AGGREGATION OF A 64-COLUMN ARRAY, the two arrangements: at target `i` and column `j` the reference's sum over
    the 1700000 joined edges is its first 1600000 terms — edge `e`, whose target word names `i`, so that its weight is
    `dis (source) · dis i` — plus the one loop `1600000 + i`, whose term is `h0 i · (dis i · dis i)`. -/
theorem layer64 (h0 : FVec Ideal S100000x64 .f32) (b : FVec Ideal S64 .f32) (x1 : IVec S2x1600000 32) :
    Stages.aggregate64 h0 b (Stages.dis x1) (Stages.src x1) (Stages.dst x1)
      = RefStages.aggregate64 h0 b (Stages.dis x1) (Read.val_main_v6 (F := Ideal) x1) (Read.val_main_v7 (F := Ideal) x1) := by
  funext ij
  obtain ⟨i, j, rfl⟩ : ∃ (i : Fin 100000) (j : Fin 64), ij = ix2 i j := ⟨ij 0, ij 1, eq_ix2 ij⟩
  rw [Cert.KernelIdeal.Stages.aggregate64_apply, RefStages.aggregate64_apply]
  have hd := dis_factor x1 i
  refine (Cert.AggregateLaw.aggregate_eq
    (Finset.univ.filter fun e : Fin 1600000 => (Stages.dst x1 (ix1 e)).toInt = (i.val : Int))
    (fun n => h0 (ix2 n j)) (fun n => Stages.dis x1 (ix1 n))
    (fun e => Cert.Gcn.row (Cert.Gcn.nrm (Stages.src x1 (ix1 e)))) i (b (ix1 j)) hd.1 hd.2).trans ?_
  refine congrArg (fun s => 0 + s + b (ix1 j)) ?_
  beta_reduce
  symm
  rw [Finset.sum_filter (s := (Finset.univ : Finset (Fin 1700000))),
    Cert.AggregateLaw.sum_join (A := 1600000) (B := 100000) (by norm_num),
    Finset.sum_filter (s := (Finset.univ : Finset (Fin 1600000)))]
  refine congrArg₂ (· + ·) (Finset.sum_congr rfl fun e _ => ?_) ?_
  · -- an edge proper: position `e` of the joined lists holds the edge's own source and target
    have h6 : Read.val_main_v6 (F := Ideal) x1 (ix1 (⟨e.val, by omega⟩ : Fin 1700000)) = Stages.src x1 (ix1 e) :=
      RefStages.v6_left x1 ⟨e.val, by omega⟩ e.isLt
    have h7 : Read.val_main_v7 (F := Ideal) x1 (ix1 (⟨e.val, by omega⟩ : Fin 1700000)) = Stages.dst x1 (ix1 e) :=
      RefStages.v7_left x1 ⟨e.val, by omega⟩ e.isLt
    rw [h6, h7]
    by_cases h : (Stages.dst x1 (ix1 e)).toInt = (i.val : Int)
    · rw [if_pos h, if_pos h, row_nrm_of_hit _ i h]
    · rw [if_neg h, if_neg h]
  · -- the loops: position `1600000 + l` holds the word `l` twice, and names target `i` exactly when `l = i`
    have h6 : ∀ l : Fin 100000, Read.val_main_v6 (F := Ideal) x1 (ix1 (⟨1600000 + l.val, by omega⟩ : Fin 1700000))
        = BitVec.ofNat 32 (1600000 + l.val - 1600000) :=
      fun l => RefStages.v6_right x1 ⟨1600000 + l.val, by omega⟩ (Nat.le_add_right _ _)
    have h7 : ∀ l : Fin 100000, Read.val_main_v7 (F := Ideal) x1 (ix1 (⟨1600000 + l.val, by omega⟩ : Fin 1700000))
        = BitVec.ofNat 32 (1600000 + l.val - 1600000) :=
      fun l => RefStages.v7_right x1 ⟨1600000 + l.val, by omega⟩ (Nat.le_add_right _ _)
    refine (Cert.AggregateLaw.sum_single_mark i _ (fun l => ?_) _).trans ?_
    · rw [h7 l, loop_toInt l]
      constructor
      · intro h; exact Fin.ext (by exact_mod_cast h)
      · intro h; rw [h]
    · rw [h6 i, h7 i, row_nrm_of_hit _ i (loop_toInt i)]

/-- THE TWO PROGRAMS' RESULTS ARE ONE FUNCTION of the eight arguments. -/
theorem result_eq (x0 : FVec Ideal S100000x256 .f32) (x1 : IVec S2x1600000 32) (x2 : FVec Ideal S256x128 .f32)
    (x3 x4 x5 : FVec Ideal S128 .f32) (x6 : FVec Ideal S128x64 .f32) (x7 : FVec Ideal S64 .f32) :
    Cert.KernelIdeal.KernelValue.result x0 x1 x2 x3 x4 x5 x6 x7
      = Read.val_main_v129 (F := Ideal) x0 x1 x2 x3 x4 x5 x6 x7 := by
  -- the first layer's output
  have hH : Read.val_main_v45 (F := Ideal) x0 x1 x2 x3
      = Stages.aggregate128 (Cert.Gcn.linear x0 x2) x3 (Stages.dis x1) (Stages.src x1) (Stages.dst x1) := by
    rw [RefStages.val_v45_eq, linear_eq, dis_eq, ← layer128]
  -- the second layer's output
  have hZ : Read.val_main_v113 (F := Ideal) x0 x1 x2 x3 x4 x5 x6 x7
      = Stages.aggregate64
          (Cert.Gcn.linear
            (Cert.Gcn.normRelu (Stages.aggregate128 (Cert.Gcn.linear x0 x2) x3 (Stages.dis x1) (Stages.src x1) (Stages.dst x1))
              (Stages.asRow (Stages.mean (Stages.aggregate128 (Cert.Gcn.linear x0 x2) x3 (Stages.dis x1) (Stages.src x1) (Stages.dst x1))))
              (Stages.asRow (Stages.invstd (Stages.aggregate128 (Cert.Gcn.linear x0 x2) x3 (Stages.dis x1) (Stages.src x1) (Stages.dst x1))))
              (Stages.asRow x4) (Stages.asRow x5))
            x6)
          x7 (Stages.dis x1) (Stages.src x1) (Stages.dst x1) := by
    rw [RefStages.val_v113_eq, RefStages.v82_eq_v14, RefStages.v74_eq_v6, RefStages.v75_eq_v7, normLinear_eq, hH, dis_eq,
      ← layer64]
  rw [scores_eq, hZ]
  rfl

end Cert.Bridge

end
-- ==== Proof.lean ====
/-
  The proof of `Cert.Claim`: the three programs run and keep their arguments, the idealized kernel is the kernel's own
  text, and over the extended reals the kernel and the reference compute the same edge scores.

  The computation is a two-layer graph convolution with symmetric normalisation, followed by a score per edge.  With
  `dis` the inverse square root of each node's degree (loops counted), a layer sends node features `h` to
  `dis(t) · Σ_{edges s → t} dis(s) · h(s)` plus the loop's own term `dis(t)² · h(t)`, plus a bias; between the layers the
  features are batch-normalised and rectified; the score of an edge is the inner product of the final features of its
  two ends.  The kernel multiplies by the weights in two launched bodies (`Cert.Gcn.Region.final0`, `final1`), pulls the
  factor `dis(t)` out of the sum over the incoming edges, and adds the loop term outside that sum; the reference appends
  one loop per node to the edge list and sums `dis(s) · dis(t) · h(s)` over all of them.  The two agree because `dis(t)`
  is a non-negative finite factor, and such a factor distributes over any finite sum of extended reals, whatever the
  summands: no condition on the inputs is used.

  `KernelValue.run_result` reads the kernel's result array as one function `KernelValue.result` of the eight arguments;
  the generated run of the reference reads its result as `Read.val_main_v129` of them; `Cert.Bridge.result_eq` is the
  equality of the two functions.  Below, only the assembly.
-/
import proofs.«115060_j18459769439026_2_alg».proof.Defs
import proofs.«115060_j18459769439026_2_alg».proof.Proof.Gen.Kernel
import proofs.«115060_j18459769439026_2_alg».proof.Proof.Gen.Kernel.Skeleton
import proofs.«115060_j18459769439026_2_alg».proof.Proof.Gen.Kernel.Launch
import proofs.«115060_j18459769439026_2_alg».proof.Proof.Gen.Kernel.Points
import proofs.«115060_j18459769439026_2_alg».proof.Proof.Gen.Kernel.Frame
import proofs.«115060_j18459769439026_2_alg».proof.Proof.Gen.KernelIdeal
import proofs.«115060_j18459769439026_2_alg».proof.Proof.Gen.KernelIdeal.Skeleton
import proofs.«115060_j18459769439026_2_alg».proof.Proof.Gen.KernelIdeal.Launch
import proofs.«115060_j18459769439026_2_alg».proof.Proof.Gen.KernelIdeal.Points
import proofs.«115060_j18459769439026_2_alg».proof.Proof.Gen.KernelIdeal.Frame
import proofs.«115060_j18459769439026_2_alg».proof.Proof.Gen.ReferenceIdeal
import proofs.«115060_j18459769439026_2_alg».proof.Proof.Gen.Pre_finite_inputs
import proofs.«115060_j18459769439026_2_alg».proof.Proof.Gen.ReferenceIdeal.Run
import proofs.«115060_j18459769439026_2_alg».proof.Proof.Gen.ReferenceIdeal.Read
import proofs.«115060_j18459769439026_2_alg».proof.Proof.KernelValue
import proofs.«115060_j18459769439026_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its generated run names the result and keeps the arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- Over the extended reals the two programs compute one function of the arguments.  The kernel's result array ends at
    `KernelValue.result` of its arguments; the reference's ends at its own composed term of arguments that agree with
    them; the two terms are equal for all arguments (`Cert.Bridge.result_eq`), with no condition on the inputs. -/
theorem algebraic : Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KernelValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v129_eq, a0, a1, a2, a3, a4, a5, a6, a7]
  exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
